-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x16 .f32) (main_arg11 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg10
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S4000x64 : Shape := ⟨2, ![4000, 64]⟩
abbrev S1000000x64 : Shape := ⟨2, ![1000000, 64]⟩
abbrev S1x64 : Shape := ⟨2, ![1, 64]⟩
abbrev S4000x1 : Shape := ⟨2, ![4000, 1]⟩
abbrev S1x16 : Shape := ⟨2, ![1, 16]⟩
abbrev S100000x16 : Shape := ⟨2, ![100000, 16]⟩
abbrev S4000x16 : Shape := ⟨2, ![4000, 16]⟩

abbrev nBuf : Space → Nat
  | .hbm => 122
  | .vmem => 62
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000, .f32⟩
  | .hbm, ⟨46, _⟩ => ⟨S1000000, .f32⟩
  | .hbm, ⟨47, _⟩ => ⟨S1000000x1, .f32⟩
  | .hbm, ⟨48, _⟩ => ⟨S100000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S100000x64, .f32⟩
  | .hbm, ⟨62, _⟩ => ⟨S1000000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x64, .f32⟩
  | .hbm, ⟨76, _⟩ => ⟨S1000000x64, .f32⟩
  | .hbm, ⟨77, _⟩ => ⟨S1000000x64, .f32⟩
  | .hbm, ⟨78, _⟩ => ⟨S_, .f32⟩
  | .hbm, ⟨79, _⟩ => ⟨S100000x64, .f32⟩
  | .hbm, ⟨80, _⟩ => ⟨S1000000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1000000x64, .f32⟩
  | .hbm, ⟨94, _⟩ => ⟨S1000000x64, .f32⟩
  | .hbm, ⟨95, _⟩ => ⟨S1000000x64, .f32⟩
  | .hbm, ⟨96, _⟩ => ⟨S_, .f32⟩
  | .hbm, ⟨97, _⟩ => ⟨S100000x64, .f32⟩
  | .hbm, ⟨98, _⟩ => ⟨S1000000x1, .i32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .i32⟩
  | .hbm, ⟨104, _⟩ => ⟨S1000000, .i32⟩
  | .hbm, ⟨105, _⟩ => ⟨S1000000, .i1⟩
  | .hbm, ⟨106, _⟩ => ⟨S_, .i32⟩
  | .hbm, ⟨107, _⟩ => ⟨S1000000, .i32⟩
  | .hbm, ⟨108, _⟩ => ⟨S1000000, .i32⟩
  | .hbm, ⟨109, _⟩ => ⟨S1000000, .i32⟩
  | .hbm, ⟨110, _⟩ => ⟨S1000000x1, .i32⟩
  | .hbm, ⟨111, _⟩ => ⟨S1000000x64, .f32⟩
  | .hbm, ⟨112, _⟩ => ⟨S1000000x64, .f32⟩
  | .hbm, ⟨113, _⟩ => ⟨S1000000x64, .f32⟩
  | .hbm, ⟨114, _⟩ => ⟨S_, .f32⟩
  | .hbm, ⟨115, _⟩ => ⟨S100000x64, .f32⟩
  | .hbm, ⟨116, _⟩ => ⟨S1000000x1, .i32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S1x16, .f32⟩
  | .hbm, ⟨121, _⟩ => ⟨S100000x16, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x1, .f32⟩
  | .local _ .vmem, ⟨24, _⟩ => ⟨S4000x1, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S64x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x1, .f32⟩
  | .local _ .vmem, ⟨38, _⟩ => ⟨S4000x1, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S64x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x1, .f32⟩
  | .local _ .vmem, ⟨52, _⟩ => ⟨S4000x1, .f32⟩
  | .local _ .vmem, ⟨53, _⟩ => ⟨S1x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S64x16, .f32⟩
  | .local _ .vmem, ⟨59, _⟩ => ⟨S1x16, .f32⟩
  | .local _ .vmem, ⟨60, _⟩ => ⟨S4000x16, .f32⟩
  | .local _ .vmem, ⟨61, _⟩ => ⟨S4000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem3_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S4000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S1000000_S1000000x1 : S1000000.ShapeCasts S1000000x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S4000x64_S64x64_S4000x64_1_0_0_1_n_n_wf : DotDims.WF S4000x64 S64x64 S4000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x64_S64x16_S4000x16_1_0_0_1_n_n_wf : DotDims.WF S4000x64 S64x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S100000x64.size a
  hwx5_1 : ∀ i : grid5.Coords, EltTy.bits .f32 = 32 ∨ (Rect.block (s := S100000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S100000x64.size a
  hwx7_1 : ∀ i : grid7.Coords, EltTy.bits .f32 = 32 ∨ (Rect.block (s := S100000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x1.size a ≤ S100000x1.size a
  hwx7_2 : ∀ i : grid7.Coords, EltTy.bits .f32 = 32 ∨ (Rect.block (s := S100000x1) S4000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x64.size a ≤ S100000x64.size a
  hwx7_4 : ∀ i : grid7.Coords, EltTy.bits .f32 = 32 ∨ (Rect.block (s := S100000x64) S4000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x16.size a ≤ S64x16.size a
  hwx8_1 : ∀ i : grid8.Coords, EltTy.bits .f32 = 32 ∨ (Rect.block (s := S64x16) S64x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x16.size a ≤ S100000x16.size a
  hwx8_3 : ∀ i : grid8.Coords, EltTy.bits .f32 = 32 ∨ (Rect.block (s := S100000x16) S4000x16.size (cc8_transform_3 i) (hinb8_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v73) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S4000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v86) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S4000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v87) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v88) S4000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v88) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S4000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 210
  | .vmem => 0
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x16, .f32⟩
  | 11 => ⟨S16, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000x64, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000, .f32⟩
  | 45 => ⟨S1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S1000000x1, .f32⟩
  | 56 => ⟨S1000000x64, .f32⟩
  | 57 => ⟨S1000000x64, .f32⟩
  | 58 => ⟨S_, .f32⟩
  | 59 => ⟨S100000x64, .f32⟩
  | 60 => ⟨S1000000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S100000x64, .f32⟩
  | 71 => ⟨S100000x64, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000, .f32⟩
  | 90 => ⟨S1000000, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S1000000x1, .f32⟩
  | 101 => ⟨S1000000x64, .f32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S100000, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S100000x64, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000, .f32⟩
  | 126 => ⟨S_, .i32⟩
  | 127 => ⟨S1000000, .i32⟩
  | _ => ⟨S100000x64, .f32⟩

abbrev hbmTy0_1 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000, .f32⟩
  | 7 => ⟨S1000000, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S1000000x1, .f32⟩
  | 18 => ⟨S1000000x64, .f32⟩
  | 19 => ⟨S1000000x64, .f32⟩
  | 20 => ⟨S_, .f32⟩
  | 21 => ⟨S100000x64, .f32⟩
  | 22 => ⟨S1000000x1, .i32⟩
  | 23 => ⟨S100000x64, .f32⟩
  | 24 => ⟨S100000, .f32⟩
  | 25 => ⟨S100000x1, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S100000x64, .f32⟩
  | 33 => ⟨S100000x64, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1000000x1, .f32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S100000x16, .f32⟩
  | 79 => ⟨S1x16, .f32⟩
  | 80 => ⟨S100000x16, .f32⟩
  | 81 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_22 : Ref sig .tc := ⟨.hbm, 162, rfl⟩
abbrev main_v126 : Ref sig .tc := ⟨.hbm, 163, rfl⟩
abbrev main_v127 : Ref sig .tc := ⟨.hbm, 164, rfl⟩
abbrev main_c_23 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_c_24 : Ref sig .tc := ⟨.hbm, 171, rfl⟩
abbrev main_v133 : Ref sig .tc := ⟨.hbm, 172, rfl⟩
abbrev main_v134 : Ref sig .tc := ⟨.hbm, 173, rfl⟩
abbrev main_c_25 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_c_26 : Ref sig .tc := ⟨.hbm, 181, rfl⟩
abbrev main_v141 : Ref sig .tc := ⟨.hbm, 182, rfl⟩
abbrev main_v142 : Ref sig .tc := ⟨.hbm, 183, rfl⟩
abbrev main_c_27 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_28 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x16_S100000x16_1_0_0_1_n_n_wf : DotDims.WF S100000x64 S64x16 S100000x16 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The kernel program's run with its result named.

  The program is fifteen segments in a row: stretches of host operations and nine kernel launches. Every weakly
  fair execution goes through them in order and ends; at the end each buffer that outlives a launch holds what the
  fold of the segments over the launch memory says (each stretch applies its operations, each launch replaces its
  output array by the blocks its grid points wrote). Here that is read at the program's result buffer as well as at
  the twelve argument buffers: the result ends at the fold's value, the arguments end as launched.
-/
import proofs.«176425_j29858612642432_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the value the
    fold of the segments gives it and every argument buffer as launched. -/
theorem run_named : θ_run defs (onTc (τ := τ) (main (F := F))) ⟨m, fun _ => 0, ρ⟩ (fun r => ∀ c : Dev nD,
      r.2.mem ((c.tc : Thread nD τ).loc main_v90) = W15 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v90 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Gen

end
-- ==== Proof.Net.lean ====
/-
  The network both programs compute, written once over whole arrays.

  A graph-convolution layer takes the node features h = x·W, sends along every edge (s, d) the row h[s] scaled by
  the edge's weight, adds what arrives at each node d, adds the node's own row scaled by its self-loop weight and
  the bias, and applies tanh; four such layers are followed by one dense layer with a bias. The edge weights
  (a column with one entry per edge), the self-loop weights (a column with one entry per node) and each bias (one
  row) are PARAMETERS here: one program builds the columns and rows by reshaping a vector, the other by spreading
  it along an axis, and a later module shows those are the same arrays.
-/
import proofs.«176425_j29858612642432_1_alg».proof.Proof.Gen.ReferenceIdeal
import Idealize.ShloMosaic.PureOps.Ideal

noncomputable section

namespace Cert.Net

open Idealize.ShloMosaic Cert.ReferenceIdeal Cert.ReferenceIdeal.Gen

variable {F : FTy → Type} [FloatOps F]

/-- An index list with its negative entries wrapped round by the number of nodes. -/
def wrap (v : (⟨S1000000, .i32⟩ : BufTy).Contents (Elt F)) : (⟨S1000000, .i32⟩ : BufTy).Contents (Elt F) :=
  select (cmpi .slt v (broadcastInDim S1000000 ![] bcast_S_S1000000 (constantI S_ 32 0#32))) (addi v (broadcastInDim S1000000 ![] bcast_S_S1000000 (constantI S_ 32 100000#32))) v

/-- Row 0 of the edge list: each edge's source. -/
def srcOf (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000

/-- Row 1 of the edge list: each edge's destination. -/
def dstOf (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- One over the square root of (1 + the number of edges arriving at the node). -/
def disOf (dst : (⟨S1000000, .i32⟩ : BufTy).Contents (Elt F)) : (⟨S100000, .f32⟩ : BufTy).Contents (Elt F) :=
  Host.rsqrt (addf (Host.scatterAdd scatter_S100000_S1000000x1_S1000000_n_0_0_1 (broadcastInDim S100000 ![] bcast_S_S100000 (constant S_ .f32 0x00000000#32)) (broadcastInDim S1000000x1 ![0] bcast_S1000000_S1000000x1_0 dst) (broadcastInDim S1000000 ![] bcast_S_S1000000 (constant S_ .f32 0x3F800000#32))) (broadcastInDim S100000 ![] bcast_S_S100000 (constant S_ .f32 0x3F800000#32)))

/-- Each edge's weight: the product of the two end nodes' factors. -/
def edgeWeight (dis : (⟨S100000, .f32⟩ : BufTy).Contents (Elt F)) (src dst : (⟨S1000000, .i32⟩ : BufTy).Contents (Elt F)) :
    (⟨S1000000, .f32⟩ : BufTy).Contents (Elt F) :=
  mulf (Host.gather gather_S100000_S1000000x1_S1000000_n_0_n_n_0_1_1 dis (broadcastInDim S1000000x1 ![0] bcast_S1000000_S1000000x1_0 (wrap src))) (Host.gather gather_S100000_S1000000x1_S1000000_n_0_n_n_0_1_1 dis (broadcastInDim S1000000x1 ![0] bcast_S1000000_S1000000x1_0 (wrap dst)))

/-- What arrives at each node: the source rows of its incoming edges, each scaled by the edge's weight, summed. -/
def agg (src dst : (⟨S1000000, .i32⟩ : BufTy).Contents (Elt F)) (wcol : (⟨S1000000x1, .f32⟩ : BufTy).Contents (Elt F))
    (h : (⟨S100000x64, .f32⟩ : BufTy).Contents (Elt F)) : (⟨S100000x64, .f32⟩ : BufTy).Contents (Elt F) :=
  Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 dst) (mulf (Host.gather gather_S100000x64_S1000000x1_S1000000x64_1_0_n_n_0_1_164 h (broadcastInDim S1000000x1 ![0] bcast_S1000000_S1000000x1_0 (wrap src))) (broadcastInDim S1000000x64 ![0, 1] bcast_S1000000x1_S1000000x64_0_1 wcol))

/-- The end of a layer: tanh of (arrivals + own row × self-loop weight) + bias. -/
def fin (a h : (⟨S100000x64, .f32⟩ : BufTy).Contents (Elt F)) (dcol : (⟨S100000x1, .f32⟩ : BufTy).Contents (Elt F))
    (brow : (⟨S1x64, .f32⟩ : BufTy).Contents (Elt F)) : (⟨S100000x64, .f32⟩ : BufTy).Contents (Elt F) :=
  Host.tanh (addf (addf a (mulf h (broadcastInDim S100000x64 ![0, 1] bcast_S100000x1_S100000x64_0_1 dcol))) (broadcastInDim S100000x64 ![0, 1] bcast_S1x64_S100000x64_0_1 brow))

/-- The node features times a layer's weights. -/
def mm (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- One layer from the projected features. -/
def layer (src dst : (⟨S1000000, .i32⟩ : BufTy).Contents (Elt F)) (dcol : (⟨S100000x1, .f32⟩ : BufTy).Contents (Elt F))
    (wcol : (⟨S1000000x1, .f32⟩ : BufTy).Contents (Elt F)) (h : (⟨S100000x64, .f32⟩ : BufTy).Contents (Elt F))
    (brow : (⟨S1x64, .f32⟩ : BufTy).Contents (Elt F)) : (⟨S100000x64, .f32⟩ : BufTy).Contents (Elt F) :=
  fin (agg src dst wcol h) h dcol brow

/-- The last dense layer: features times weights plus the bias row. -/
def head (x : (⟨S100000x64, .f32⟩ : BufTy).Contents (Elt F)) (w : (⟨S64x16, .f32⟩ : BufTy).Contents (Elt F))
    (brow : (⟨S1x16, .f32⟩ : BufTy).Contents (Elt F)) : (⟨S100000x16, .f32⟩ : BufTy).Contents (Elt F) :=
  addf (Host.dotGeneral dot_S100000x64_S64x16_S100000x16_1_0_0_1_n_n none x w) (broadcastInDim S100000x16 ![0, 1] bcast_S1x16_S100000x16_0_1 brow)

/-- The whole network: four layers and the head. -/
def net (src dst : (⟨S1000000, .i32⟩ : BufTy).Contents (Elt F)) (dcol : (⟨S100000x1, .f32⟩ : BufTy).Contents (Elt F))
    (wcol : (⟨S1000000x1, .f32⟩ : BufTy).Contents (Elt F)) (x : (⟨S100000x64, .f32⟩ : BufTy).Contents (Elt F))
    (w0 : (⟨S64x64, .f32⟩ : BufTy).Contents (Elt F)) (b0 : (⟨S1x64, .f32⟩ : BufTy).Contents (Elt F))
    (w1 : (⟨S64x64, .f32⟩ : BufTy).Contents (Elt F)) (b1 : (⟨S1x64, .f32⟩ : BufTy).Contents (Elt F))
    (w2 : (⟨S64x64, .f32⟩ : BufTy).Contents (Elt F)) (b2 : (⟨S1x64, .f32⟩ : BufTy).Contents (Elt F))
    (w3 : (⟨S64x64, .f32⟩ : BufTy).Contents (Elt F)) (b3 : (⟨S1x64, .f32⟩ : BufTy).Contents (Elt F))
    (wo : (⟨S64x16, .f32⟩ : BufTy).Contents (Elt F)) (bo : (⟨S1x16, .f32⟩ : BufTy).Contents (Elt F)) :
    (⟨S100000x16, .f32⟩ : BufTy).Contents (Elt F) :=
  head (layer src dst dcol wcol (mm (layer src dst dcol wcol (mm (layer src dst dcol wcol (mm (layer src dst dcol wcol (mm x w0) b0) w1) b1) w2) b2) w3) b3) wo bo

end Cert.Net

end
-- ==== Proof.Launches.lean ====
/-
  What each of the nine kernel launches leaves in its output array, as one function of the arrays it reads.

  Every launch works on blocks of 4000 consecutive rows, one block per grid point, and writes block t of its output
  from block t of its row-blocked inputs and the whole of its small inputs. Stated here, proved elsewhere: put
  together, the 25 blocks a projection launch writes are the whole product of the features with the weights; the
  blocks a layer-end launch writes are the whole array tanh((arrivals + own row × self-loop weight) + bias); the
  blocks the last launch writes are the whole product plus the bias row. Each statement is for any contents `V` the
  launch may find in its arrays.
-/
import proofs.«176425_j29858612642432_1_alg».proof.Proof.Gen.KernelIdeal.Frame
import proofs.«176425_j29858612642432_1_alg».proof.Proof.Net

noncomputable section

namespace Cert.KernelIdeal.Launches

open Idealize.ShloMosaic Idealize.ShloMosaic.TcCoe Idealize.SL.Sem Cert.KernelIdeal Cert.KernelIdeal.Gen

/-- The contents a launch may find: every buffer of every core. -/
abbrev Entry := (c : Dev nD) → (b : Ref sig .tc) → Buf (Elt Ideal) ((c : Thread nD τ).loc b)

/-- Projection launches: the output is the features times the weights. -/
def Proj0 : Prop := ∀ (V : Entry) (c : Dev nD), (dat0 (F := Ideal) V c).arrAt 2 cfg0.N = Cert.Net.mm (V c main_arg0) (V c main_arg2)
def Proj2 : Prop := ∀ (V : Entry) (c : Dev nD), (dat2 (F := Ideal) V c).arrAt 2 cfg2.N = Cert.Net.mm (V c main_v43) (V c main_arg4)
def Proj4 : Prop := ∀ (V : Entry) (c : Dev nD), (dat4 (F := Ideal) V c).arrAt 2 cfg4.N = Cert.Net.mm (V c main_v58) (V c main_arg6)
def Proj6 : Prop := ∀ (V : Entry) (c : Dev nD), (dat6 (F := Ideal) V c).arrAt 2 cfg6.N = Cert.Net.mm (V c main_v73) (V c main_arg8)

/-- Layer-end launches: the output is tanh((arrivals + own row × self-loop weight) + bias). -/
def End1 : Prop := ∀ (V : Entry) (c : Dev nD), (dat1 (F := Ideal) V c).arrAt 4 cfg1.N = Cert.Net.fin (V c main_v41) (V c main_v29) (V c main_v12) (V c main_v42)
def End3 : Prop := ∀ (V : Entry) (c : Dev nD), (dat3 (F := Ideal) V c).arrAt 4 cfg3.N = Cert.Net.fin (V c main_v56) (V c main_v44) (V c main_v12) (V c main_v57)
def End5 : Prop := ∀ (V : Entry) (c : Dev nD), (dat5 (F := Ideal) V c).arrAt 4 cfg5.N = Cert.Net.fin (V c main_v71) (V c main_v59) (V c main_v12) (V c main_v72)
def End7 : Prop := ∀ (V : Entry) (c : Dev nD), (dat7 (F := Ideal) V c).arrAt 4 cfg7.N = Cert.Net.fin (V c main_v86) (V c main_v74) (V c main_v12) (V c main_v87)

/-- The last launch: the output is the features times the head's weights plus its bias row. -/
def Head8 : Prop := ∀ (V : Entry) (c : Dev nD), (dat8 (F := Ideal) V c).arrAt 3 cfg8.N = Cert.Net.head (V c main_v88) (V c main_arg10) (V c main_v89)

end Cert.KernelIdeal.Launches

end
-- ==== Proof.KernelFold.lean ====
/-
  The kernel program's result, read through its fifteen segments.

  Between launches the program keeps a handful of arrays: the edges' sources and destinations, the self-loop
  weights as a column, the edge weights as a column, the twelve arguments, and the features the last launch
  wrote. A stretch of host operations changes only the buffers its operations write; a launch changes only its
  output array. So the value of each kept array at each boundary is the value it had when it was made, and the
  arrays made along the way are, in order: the projected features of a layer (a launch), what arrives at each
  node (a stretch: gather, scale, scatter-add), the layer's end (a launch) — four times — and the head (a launch).
  Each launch's output is taken from the hypotheses `H` (what each launch leaves, proved apart).
-/
import proofs.«176425_j29858612642432_1_alg».proof.Proof.Launches
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Launches

/-- What each of the nine launches leaves in its output array. -/
structure AllLaunches : Prop where
  p0 : Proj0
  e1 : End1
  p2 : Proj2
  e3 : End3
  p4 : Proj4
  e5 : End5
  p6 : Proj6
  e7 : End7
  h8 : Head8

/-! ## A stretch of host operations changes only the buffers it writes -/

/-- The buffers the stretch writes. -/
abbrev hostOps0_W : List (Ref sig .tc) := [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]
theorem hostOps0_writes : (hostOps0 : List (HloOp τ sig (Elt Ideal))).Forall fun op => op.writes ⊆ (hostOps0_W.map (Proc.devRef (τ := τ) .tc)).toFinset := by
  simp only [hostOps0, List.Forall]
  repeat' apply And.intro
  all_goals (simp only [nullary_writes, unary_writes, binary_writes, ternary_writes, quaternary_writes, reshape_writes, binaryIndexed_writes, Finset.singleton_subset_iff, List.mem_toFinset]; exact List.mem_map_of_mem (by decide))
/-- A buffer the stretch does not write keeps its contents through it. -/
theorem hostOps0_keep (V : Valuation τ sig (Elt Ideal)) (r : Ref sig .tc) (h : r ∉ hostOps0_W) :
    after hostOps0 V (Proc.devRef .tc r) = V (Proc.devRef .tc r) :=
  after_of_writes_sub hostOps0 V hostOps0_writes h

/-- The buffers the stretch writes. -/
abbrev hostOps1_W : List (Ref sig .tc) := [main_c_5, main_v30, main_v31, main_c_6, main_v32, main_v33, main_v34, main_v35, main_v36, main_v37, main_v38, main_cst_7, main_v39, main_v40, main_v41, main_v42]
theorem hostOps1_writes : (hostOps1 : List (HloOp τ sig (Elt Ideal))).Forall fun op => op.writes ⊆ (hostOps1_W.map (Proc.devRef (τ := τ) .tc)).toFinset := by
  simp only [hostOps1, List.Forall]
  repeat' apply And.intro
  all_goals (simp only [nullary_writes, unary_writes, binary_writes, ternary_writes, quaternary_writes, reshape_writes, binaryIndexed_writes, Finset.singleton_subset_iff, List.mem_toFinset]; exact List.mem_map_of_mem (by decide))
/-- A buffer the stretch does not write keeps its contents through it. -/
theorem hostOps1_keep (V : Valuation τ sig (Elt Ideal)) (r : Ref sig .tc) (h : r ∉ hostOps1_W) :
    after hostOps1 V (Proc.devRef .tc r) = V (Proc.devRef .tc r) :=
  after_of_writes_sub hostOps1 V hostOps1_writes h

/-- The buffers the stretch writes. -/
abbrev hostOps3_W : List (Ref sig .tc) := [main_c_8, main_v45, main_v46, main_c_9, main_v47, main_v48, main_v49, main_v50, main_v51, main_v52, main_v53, main_cst_10, main_v54, main_v55, main_v56, main_v57]
theorem hostOps3_writes : (hostOps3 : List (HloOp τ sig (Elt Ideal))).Forall fun op => op.writes ⊆ (hostOps3_W.map (Proc.devRef (τ := τ) .tc)).toFinset := by
  simp only [hostOps3, List.Forall]
  repeat' apply And.intro
  all_goals (simp only [nullary_writes, unary_writes, binary_writes, ternary_writes, quaternary_writes, reshape_writes, binaryIndexed_writes, Finset.singleton_subset_iff, List.mem_toFinset]; exact List.mem_map_of_mem (by decide))
/-- A buffer the stretch does not write keeps its contents through it. -/
theorem hostOps3_keep (V : Valuation τ sig (Elt Ideal)) (r : Ref sig .tc) (h : r ∉ hostOps3_W) :
    after hostOps3 V (Proc.devRef .tc r) = V (Proc.devRef .tc r) :=
  after_of_writes_sub hostOps3 V hostOps3_writes h

/-- The buffers the stretch writes. -/
abbrev hostOps5_W : List (Ref sig .tc) := [main_c_11, main_v60, main_v61, main_c_12, main_v62, main_v63, main_v64, main_v65, main_v66, main_v67, main_v68, main_cst_13, main_v69, main_v70, main_v71, main_v72]
theorem hostOps5_writes : (hostOps5 : List (HloOp τ sig (Elt Ideal))).Forall fun op => op.writes ⊆ (hostOps5_W.map (Proc.devRef (τ := τ) .tc)).toFinset := by
  simp only [hostOps5, List.Forall]
  repeat' apply And.intro
  all_goals (simp only [nullary_writes, unary_writes, binary_writes, ternary_writes, quaternary_writes, reshape_writes, binaryIndexed_writes, Finset.singleton_subset_iff, List.mem_toFinset]; exact List.mem_map_of_mem (by decide))
/-- A buffer the stretch does not write keeps its contents through it. -/
theorem hostOps5_keep (V : Valuation τ sig (Elt Ideal)) (r : Ref sig .tc) (h : r ∉ hostOps5_W) :
    after hostOps5 V (Proc.devRef .tc r) = V (Proc.devRef .tc r) :=
  after_of_writes_sub hostOps5 V hostOps5_writes h

/-- The buffers the stretch writes. -/
abbrev hostOps7_W : List (Ref sig .tc) := [main_c_14, main_v75, main_v76, main_c_15, main_v77, main_v78, main_v79, main_v80, main_v81, main_v82, main_v83, main_cst_16, main_v84, main_v85, main_v86, main_v87]
theorem hostOps7_writes : (hostOps7 : List (HloOp τ sig (Elt Ideal))).Forall fun op => op.writes ⊆ (hostOps7_W.map (Proc.devRef (τ := τ) .tc)).toFinset := by
  simp only [hostOps7, List.Forall]
  repeat' apply And.intro
  all_goals (simp only [nullary_writes, unary_writes, binary_writes, ternary_writes, quaternary_writes, reshape_writes, binaryIndexed_writes, Finset.singleton_subset_iff, List.mem_toFinset]; exact List.mem_map_of_mem (by decide))
/-- A buffer the stretch does not write keeps its contents through it. -/
theorem hostOps7_keep (V : Valuation τ sig (Elt Ideal)) (r : Ref sig .tc) (h : r ∉ hostOps7_W) :
    after hostOps7 V (Proc.devRef .tc r) = V (Proc.devRef .tc r) :=
  after_of_writes_sub hostOps7 V hostOps7_writes h

/-- The buffers the stretch writes. -/
abbrev hostOps8_W : List (Ref sig .tc) := [main_v89]
theorem hostOps8_writes : (hostOps8 : List (HloOp τ sig (Elt Ideal))).Forall fun op => op.writes ⊆ (hostOps8_W.map (Proc.devRef (τ := τ) .tc)).toFinset := by
  simp only [hostOps8, List.Forall]
  repeat' apply And.intro
  all_goals (simp only [nullary_writes, unary_writes, binary_writes, ternary_writes, quaternary_writes, reshape_writes, binaryIndexed_writes, Finset.singleton_subset_iff, List.mem_toFinset]; exact List.mem_map_of_mem (by decide))
/-- A buffer the stretch does not write keeps its contents through it. -/
theorem hostOps8_keep (V : Valuation τ sig (Elt Ideal)) (r : Ref sig .tc) (h : r ∉ hostOps8_W) :
    after hostOps8 V (Proc.devRef .tc r) = V (Proc.devRef .tc r) :=
  after_of_writes_sub hostOps8 V hostOps8_writes h

/-! ## The arrays the program makes, as functions of the launch memory -/

variable (m : (ℓ : Loc nD τ sig) → Buf (Elt Ideal) ℓ) (ρ : Dev nD → PrngReg) (c : Dev nD)

/-- Each edge's source and destination. -/
def src : (⟨S1000000, .i32⟩ : BufTy).Contents (Elt Ideal) := Cert.Net.srcOf (m ((c : Thread nD τ).loc main_arg1))
def dst : (⟨S1000000, .i32⟩ : BufTy).Contents (Elt Ideal) := Cert.Net.dstOf (m ((c : Thread nD τ).loc main_arg1))
/-- Each node's factor 1/sqrt(1 + arrivals). -/
def dis : (⟨S100000, .f32⟩ : BufTy).Contents (Elt Ideal) := Cert.Net.disOf (dst m c)
/-- The self-loop weights, one per node, as a column (the vector reshaped). -/
def dcol : (⟨S100000x1, .f32⟩ : BufTy).Contents (Elt Ideal) := shapeCast S100000x1 (mulf (F := Ideal) (s := S100000) (φ := .f32) (dis m c) (dis m c)) shapeCasts_S100000_S100000x1
/-- The edge weights, one per edge, as a column (the vector reshaped). -/
def wcol : (⟨S1000000x1, .f32⟩ : BufTy).Contents (Elt Ideal) := shapeCast S1000000x1 (Cert.Net.edgeWeight (dis m c) (src m c) (dst m c)) shapeCasts_S1000000_S1000000x1
/-- The bias rows (each bias vector reshaped to one row). -/
def brow0 : (⟨S1x64, .f32⟩ : BufTy).Contents (Elt Ideal) := shapeCast S1x64 (m ((c : Thread nD τ).loc main_arg3)) shapeCasts_S64_S1x64
def brow1 : (⟨S1x64, .f32⟩ : BufTy).Contents (Elt Ideal) := shapeCast S1x64 (m ((c : Thread nD τ).loc main_arg5)) shapeCasts_S64_S1x64
def brow2 : (⟨S1x64, .f32⟩ : BufTy).Contents (Elt Ideal) := shapeCast S1x64 (m ((c : Thread nD τ).loc main_arg7)) shapeCasts_S64_S1x64
def brow3 : (⟨S1x64, .f32⟩ : BufTy).Contents (Elt Ideal) := shapeCast S1x64 (m ((c : Thread nD τ).loc main_arg9)) shapeCasts_S64_S1x64
def browO : (⟨S1x16, .f32⟩ : BufTy).Contents (Elt Ideal) := shapeCast S1x16 (m ((c : Thread nD τ).loc main_arg11)) shapeCasts_S16_S1x16
/-- Layer by layer: the projected features, then the layer's end. -/
def h0 : (⟨S100000x64, .f32⟩ : BufTy).Contents (Elt Ideal) := Cert.Net.mm (m ((c : Thread nD τ).loc main_arg0)) (m ((c : Thread nD τ).loc main_arg2))
def x1 : (⟨S100000x64, .f32⟩ : BufTy).Contents (Elt Ideal) := Cert.Net.layer (src m c) (dst m c) (dcol m c) (wcol m c) (h0 m c) (brow0 m c)
def h1 : (⟨S100000x64, .f32⟩ : BufTy).Contents (Elt Ideal) := Cert.Net.mm (x1 m c) (m ((c : Thread nD τ).loc main_arg4))
def x2 : (⟨S100000x64, .f32⟩ : BufTy).Contents (Elt Ideal) := Cert.Net.layer (src m c) (dst m c) (dcol m c) (wcol m c) (h1 m c) (brow1 m c)
def h2 : (⟨S100000x64, .f32⟩ : BufTy).Contents (Elt Ideal) := Cert.Net.mm (x2 m c) (m ((c : Thread nD τ).loc main_arg6))
def x3 : (⟨S100000x64, .f32⟩ : BufTy).Contents (Elt Ideal) := Cert.Net.layer (src m c) (dst m c) (dcol m c) (wcol m c) (h2 m c) (brow2 m c)
def h3 : (⟨S100000x64, .f32⟩ : BufTy).Contents (Elt Ideal) := Cert.Net.mm (x3 m c) (m ((c : Thread nD τ).loc main_arg8))
def x4 : (⟨S100000x64, .f32⟩ : BufTy).Contents (Elt Ideal) := Cert.Net.layer (src m c) (dst m c) (dcol m c) (wcol m c) (h3 m c) (brow3 m c)
/-- The result. -/
def out : (⟨S100000x16, .f32⟩ : BufTy).Contents (Elt Ideal) := Cert.Net.head (x4 m c) (m ((c : Thread nD τ).loc main_arg10)) (browO m c)

/-! ## What each stretch makes, from any contents `V` it starts at -/

section
variable (V : Valuation τ sig (Elt Ideal))

set_option maxHeartbeats 2000000 in
theorem first_src : after hostOps0 V (Proc.devRef .tc main_v1) = Cert.Net.srcOf (V (Proc.devRef .tc main_arg1)) := by
  simp only [hostOps0]; after_results_simp; rfl
set_option maxHeartbeats 2000000 in
theorem first_dst : after hostOps0 V (Proc.devRef .tc main_v3) = Cert.Net.dstOf (V (Proc.devRef .tc main_arg1)) := by
  simp only [hostOps0]; after_results_simp; rfl
set_option maxHeartbeats 2000000 in
theorem first_dcol : after hostOps0 V (Proc.devRef .tc main_v12)
    = shapeCast S100000x1 (mulf (F := Ideal) (s := S100000) (φ := .f32) (Cert.Net.disOf (Cert.Net.dstOf (V (Proc.devRef .tc main_arg1)))) (Cert.Net.disOf (Cert.Net.dstOf (V (Proc.devRef .tc main_arg1))))) shapeCasts_S100000_S100000x1 := by
  simp only [hostOps0]; after_results_simp; rfl
set_option maxHeartbeats 2000000 in
theorem first_wcol : after hostOps0 V (Proc.devRef .tc main_v28)
    = shapeCast S1000000x1 (Cert.Net.edgeWeight (Cert.Net.disOf (Cert.Net.dstOf (V (Proc.devRef .tc main_arg1)))) (Cert.Net.srcOf (V (Proc.devRef .tc main_arg1))) (Cert.Net.dstOf (V (Proc.devRef .tc main_arg1)))) shapeCasts_S1000000_S1000000x1 := by
  simp only [hostOps0]; after_results_simp; rfl
set_option maxHeartbeats 2000000 in
theorem hostOps1_agg : after hostOps1 V (Proc.devRef .tc main_v41) = Cert.Net.agg (V (Proc.devRef .tc main_v1)) (V (Proc.devRef .tc main_v3)) (V (Proc.devRef .tc main_v28)) (V (Proc.devRef .tc main_v29)) := by
  simp only [hostOps1]; after_results_simp; rfl
theorem hostOps1_brow : after hostOps1 V (Proc.devRef .tc main_v42) = shapeCast S1x64 (V (Proc.devRef .tc main_arg3)) shapeCasts_S64_S1x64 := by
  simp only [hostOps1]; after_results_simp; rfl
set_option maxHeartbeats 2000000 in
theorem hostOps3_agg : after hostOps3 V (Proc.devRef .tc main_v56) = Cert.Net.agg (V (Proc.devRef .tc main_v1)) (V (Proc.devRef .tc main_v3)) (V (Proc.devRef .tc main_v28)) (V (Proc.devRef .tc main_v44)) := by
  simp only [hostOps3]; after_results_simp; rfl
theorem hostOps3_brow : after hostOps3 V (Proc.devRef .tc main_v57) = shapeCast S1x64 (V (Proc.devRef .tc main_arg5)) shapeCasts_S64_S1x64 := by
  simp only [hostOps3]; after_results_simp; rfl
set_option maxHeartbeats 2000000 in
theorem hostOps5_agg : after hostOps5 V (Proc.devRef .tc main_v71) = Cert.Net.agg (V (Proc.devRef .tc main_v1)) (V (Proc.devRef .tc main_v3)) (V (Proc.devRef .tc main_v28)) (V (Proc.devRef .tc main_v59)) := by
  simp only [hostOps5]; after_results_simp; rfl
theorem hostOps5_brow : after hostOps5 V (Proc.devRef .tc main_v72) = shapeCast S1x64 (V (Proc.devRef .tc main_arg7)) shapeCasts_S64_S1x64 := by
  simp only [hostOps5]; after_results_simp; rfl
set_option maxHeartbeats 2000000 in
theorem hostOps7_agg : after hostOps7 V (Proc.devRef .tc main_v86) = Cert.Net.agg (V (Proc.devRef .tc main_v1)) (V (Proc.devRef .tc main_v3)) (V (Proc.devRef .tc main_v28)) (V (Proc.devRef .tc main_v74)) := by
  simp only [hostOps7]; after_results_simp; rfl
theorem hostOps7_brow : after hostOps7 V (Proc.devRef .tc main_v87) = shapeCast S1x64 (V (Proc.devRef .tc main_arg9)) shapeCasts_S64_S1x64 := by
  simp only [hostOps7]; after_results_simp; rfl
theorem hostOps8_brow : after hostOps8 V (Proc.devRef .tc main_v89) = shapeCast S1x16 (V (Proc.devRef .tc main_arg11)) shapeCasts_S16_S1x16 := by
  simp only [hostOps8]; after_results_simp; rfl
end

/-! ## The kept arrays, boundary by boundary -/

section
variable (H : AllLaunches)
include H

-- boundary 1: after the first stretch
theorem w1_arg0 : W1 m ρ c (Proc.devRef .tc main_arg0) = m ((c : Thread nD τ).loc main_arg0) :=
  hostOps0_keep (W0 m ρ c) main_arg0 (by decide)
theorem w1_arg2 : W1 m ρ c (Proc.devRef .tc main_arg2) = m ((c : Thread nD τ).loc main_arg2) :=
  hostOps0_keep (W0 m ρ c) main_arg2 (by decide)
theorem w1_arg3 : W1 m ρ c (Proc.devRef .tc main_arg3) = m ((c : Thread nD τ).loc main_arg3) :=
  hostOps0_keep (W0 m ρ c) main_arg3 (by decide)
theorem w1_arg4 : W1 m ρ c (Proc.devRef .tc main_arg4) = m ((c : Thread nD τ).loc main_arg4) :=
  hostOps0_keep (W0 m ρ c) main_arg4 (by decide)
theorem w1_arg5 : W1 m ρ c (Proc.devRef .tc main_arg5) = m ((c : Thread nD τ).loc main_arg5) :=
  hostOps0_keep (W0 m ρ c) main_arg5 (by decide)
theorem w1_arg6 : W1 m ρ c (Proc.devRef .tc main_arg6) = m ((c : Thread nD τ).loc main_arg6) :=
  hostOps0_keep (W0 m ρ c) main_arg6 (by decide)
theorem w1_arg7 : W1 m ρ c (Proc.devRef .tc main_arg7) = m ((c : Thread nD τ).loc main_arg7) :=
  hostOps0_keep (W0 m ρ c) main_arg7 (by decide)
theorem w1_arg8 : W1 m ρ c (Proc.devRef .tc main_arg8) = m ((c : Thread nD τ).loc main_arg8) :=
  hostOps0_keep (W0 m ρ c) main_arg8 (by decide)
theorem w1_arg9 : W1 m ρ c (Proc.devRef .tc main_arg9) = m ((c : Thread nD τ).loc main_arg9) :=
  hostOps0_keep (W0 m ρ c) main_arg9 (by decide)
theorem w1_arg10 : W1 m ρ c (Proc.devRef .tc main_arg10) = m ((c : Thread nD τ).loc main_arg10) :=
  hostOps0_keep (W0 m ρ c) main_arg10 (by decide)
theorem w1_arg11 : W1 m ρ c (Proc.devRef .tc main_arg11) = m ((c : Thread nD τ).loc main_arg11) :=
  hostOps0_keep (W0 m ρ c) main_arg11 (by decide)
theorem w1_v1 : W1 m ρ c (Proc.devRef .tc main_v1) = src m c := first_src (W0 m ρ c)
theorem w1_v3 : W1 m ρ c (Proc.devRef .tc main_v3) = dst m c := first_dst (W0 m ρ c)
theorem w1_v12 : W1 m ρ c (Proc.devRef .tc main_v12) = dcol m c := first_dcol (W0 m ρ c)
theorem w1_v28 : W1 m ρ c (Proc.devRef .tc main_v28) = wcol m c := first_wcol (W0 m ρ c)

-- boundary 2: after launch 0
theorem w2_v29 : W2 m ρ c (Proc.devRef .tc main_v29) = h0 m c :=
  (W2_arr m ρ c 2).trans ((H.p0 (V1 m ρ) c).trans (congr (congrArg (Cert.Net.mm (F := Ideal)) (w1_arg0 m ρ c H)) (w1_arg2 m ρ c H)))
theorem w2_arg3 : W2 m ρ c (Proc.devRef .tc main_arg3) = m ((c : Thread nD τ).loc main_arg3) :=
  (W2_of_ne m ρ c main_arg3 (by decide)).trans (w1_arg3 m ρ c H)
theorem w2_arg4 : W2 m ρ c (Proc.devRef .tc main_arg4) = m ((c : Thread nD τ).loc main_arg4) :=
  (W2_of_ne m ρ c main_arg4 (by decide)).trans (w1_arg4 m ρ c H)
theorem w2_arg5 : W2 m ρ c (Proc.devRef .tc main_arg5) = m ((c : Thread nD τ).loc main_arg5) :=
  (W2_of_ne m ρ c main_arg5 (by decide)).trans (w1_arg5 m ρ c H)
theorem w2_arg6 : W2 m ρ c (Proc.devRef .tc main_arg6) = m ((c : Thread nD τ).loc main_arg6) :=
  (W2_of_ne m ρ c main_arg6 (by decide)).trans (w1_arg6 m ρ c H)
theorem w2_arg7 : W2 m ρ c (Proc.devRef .tc main_arg7) = m ((c : Thread nD τ).loc main_arg7) :=
  (W2_of_ne m ρ c main_arg7 (by decide)).trans (w1_arg7 m ρ c H)
theorem w2_arg8 : W2 m ρ c (Proc.devRef .tc main_arg8) = m ((c : Thread nD τ).loc main_arg8) :=
  (W2_of_ne m ρ c main_arg8 (by decide)).trans (w1_arg8 m ρ c H)
theorem w2_arg9 : W2 m ρ c (Proc.devRef .tc main_arg9) = m ((c : Thread nD τ).loc main_arg9) :=
  (W2_of_ne m ρ c main_arg9 (by decide)).trans (w1_arg9 m ρ c H)
theorem w2_arg10 : W2 m ρ c (Proc.devRef .tc main_arg10) = m ((c : Thread nD τ).loc main_arg10) :=
  (W2_of_ne m ρ c main_arg10 (by decide)).trans (w1_arg10 m ρ c H)
theorem w2_arg11 : W2 m ρ c (Proc.devRef .tc main_arg11) = m ((c : Thread nD τ).loc main_arg11) :=
  (W2_of_ne m ρ c main_arg11 (by decide)).trans (w1_arg11 m ρ c H)
theorem w2_v1 : W2 m ρ c (Proc.devRef .tc main_v1) = src m c :=
  (W2_of_ne m ρ c main_v1 (by decide)).trans (w1_v1 m ρ c H)
theorem w2_v3 : W2 m ρ c (Proc.devRef .tc main_v3) = dst m c :=
  (W2_of_ne m ρ c main_v3 (by decide)).trans (w1_v3 m ρ c H)
theorem w2_v12 : W2 m ρ c (Proc.devRef .tc main_v12) = dcol m c :=
  (W2_of_ne m ρ c main_v12 (by decide)).trans (w1_v12 m ρ c H)
theorem w2_v28 : W2 m ρ c (Proc.devRef .tc main_v28) = wcol m c :=
  (W2_of_ne m ρ c main_v28 (by decide)).trans (w1_v28 m ρ c H)

-- boundary 3: after the stretch hostOps1
theorem w3_v41 : W3 m ρ c (Proc.devRef .tc main_v41) = Cert.Net.agg (src m c) (dst m c) (wcol m c) (h0 m c) :=
  (hostOps1_agg (W2 m ρ c)).trans (congr (congr (congr (congrArg (Cert.Net.agg (F := Ideal)) (w2_v1 m ρ c H)) (w2_v3 m ρ c H)) (w2_v28 m ρ c H)) (w2_v29 m ρ c H))
theorem w3_v42 : W3 m ρ c (Proc.devRef .tc main_v42) = brow0 m c :=
  (hostOps1_brow (W2 m ρ c)).trans (congrArg (fun z => shapeCast S1x64 z shapeCasts_S64_S1x64) (w2_arg3 m ρ c H))
theorem w3_v29 : W3 m ρ c (Proc.devRef .tc main_v29) = h0 m c :=
  (hostOps1_keep (W2 m ρ c) main_v29 (by decide)).trans (w2_v29 m ρ c H)
theorem w3_arg4 : W3 m ρ c (Proc.devRef .tc main_arg4) = m ((c : Thread nD τ).loc main_arg4) :=
  (hostOps1_keep (W2 m ρ c) main_arg4 (by decide)).trans (w2_arg4 m ρ c H)
theorem w3_arg5 : W3 m ρ c (Proc.devRef .tc main_arg5) = m ((c : Thread nD τ).loc main_arg5) :=
  (hostOps1_keep (W2 m ρ c) main_arg5 (by decide)).trans (w2_arg5 m ρ c H)
theorem w3_arg6 : W3 m ρ c (Proc.devRef .tc main_arg6) = m ((c : Thread nD τ).loc main_arg6) :=
  (hostOps1_keep (W2 m ρ c) main_arg6 (by decide)).trans (w2_arg6 m ρ c H)
theorem w3_arg7 : W3 m ρ c (Proc.devRef .tc main_arg7) = m ((c : Thread nD τ).loc main_arg7) :=
  (hostOps1_keep (W2 m ρ c) main_arg7 (by decide)).trans (w2_arg7 m ρ c H)
theorem w3_arg8 : W3 m ρ c (Proc.devRef .tc main_arg8) = m ((c : Thread nD τ).loc main_arg8) :=
  (hostOps1_keep (W2 m ρ c) main_arg8 (by decide)).trans (w2_arg8 m ρ c H)
theorem w3_arg9 : W3 m ρ c (Proc.devRef .tc main_arg9) = m ((c : Thread nD τ).loc main_arg9) :=
  (hostOps1_keep (W2 m ρ c) main_arg9 (by decide)).trans (w2_arg9 m ρ c H)
theorem w3_arg10 : W3 m ρ c (Proc.devRef .tc main_arg10) = m ((c : Thread nD τ).loc main_arg10) :=
  (hostOps1_keep (W2 m ρ c) main_arg10 (by decide)).trans (w2_arg10 m ρ c H)
theorem w3_arg11 : W3 m ρ c (Proc.devRef .tc main_arg11) = m ((c : Thread nD τ).loc main_arg11) :=
  (hostOps1_keep (W2 m ρ c) main_arg11 (by decide)).trans (w2_arg11 m ρ c H)
theorem w3_v1 : W3 m ρ c (Proc.devRef .tc main_v1) = src m c :=
  (hostOps1_keep (W2 m ρ c) main_v1 (by decide)).trans (w2_v1 m ρ c H)
theorem w3_v3 : W3 m ρ c (Proc.devRef .tc main_v3) = dst m c :=
  (hostOps1_keep (W2 m ρ c) main_v3 (by decide)).trans (w2_v3 m ρ c H)
theorem w3_v12 : W3 m ρ c (Proc.devRef .tc main_v12) = dcol m c :=
  (hostOps1_keep (W2 m ρ c) main_v12 (by decide)).trans (w2_v12 m ρ c H)
theorem w3_v28 : W3 m ρ c (Proc.devRef .tc main_v28) = wcol m c :=
  (hostOps1_keep (W2 m ρ c) main_v28 (by decide)).trans (w2_v28 m ρ c H)

-- boundary 4: after launch 1
theorem w4_v43 : W4 m ρ c (Proc.devRef .tc main_v43) = x1 m c :=
  (W4_arr m ρ c 4).trans ((H.e1 (V3 m ρ) c).trans (congr (congr (congr (congrArg (Cert.Net.fin (F := Ideal)) (w3_v41 m ρ c H)) (w3_v29 m ρ c H)) (w3_v12 m ρ c H)) (w3_v42 m ρ c H)))
theorem w4_arg4 : W4 m ρ c (Proc.devRef .tc main_arg4) = m ((c : Thread nD τ).loc main_arg4) :=
  (W4_of_ne m ρ c main_arg4 (by decide)).trans (w3_arg4 m ρ c H)
theorem w4_arg5 : W4 m ρ c (Proc.devRef .tc main_arg5) = m ((c : Thread nD τ).loc main_arg5) :=
  (W4_of_ne m ρ c main_arg5 (by decide)).trans (w3_arg5 m ρ c H)
theorem w4_arg6 : W4 m ρ c (Proc.devRef .tc main_arg6) = m ((c : Thread nD τ).loc main_arg6) :=
  (W4_of_ne m ρ c main_arg6 (by decide)).trans (w3_arg6 m ρ c H)
theorem w4_arg7 : W4 m ρ c (Proc.devRef .tc main_arg7) = m ((c : Thread nD τ).loc main_arg7) :=
  (W4_of_ne m ρ c main_arg7 (by decide)).trans (w3_arg7 m ρ c H)
theorem w4_arg8 : W4 m ρ c (Proc.devRef .tc main_arg8) = m ((c : Thread nD τ).loc main_arg8) :=
  (W4_of_ne m ρ c main_arg8 (by decide)).trans (w3_arg8 m ρ c H)
theorem w4_arg9 : W4 m ρ c (Proc.devRef .tc main_arg9) = m ((c : Thread nD τ).loc main_arg9) :=
  (W4_of_ne m ρ c main_arg9 (by decide)).trans (w3_arg9 m ρ c H)
theorem w4_arg10 : W4 m ρ c (Proc.devRef .tc main_arg10) = m ((c : Thread nD τ).loc main_arg10) :=
  (W4_of_ne m ρ c main_arg10 (by decide)).trans (w3_arg10 m ρ c H)
theorem w4_arg11 : W4 m ρ c (Proc.devRef .tc main_arg11) = m ((c : Thread nD τ).loc main_arg11) :=
  (W4_of_ne m ρ c main_arg11 (by decide)).trans (w3_arg11 m ρ c H)
theorem w4_v1 : W4 m ρ c (Proc.devRef .tc main_v1) = src m c :=
  (W4_of_ne m ρ c main_v1 (by decide)).trans (w3_v1 m ρ c H)
theorem w4_v3 : W4 m ρ c (Proc.devRef .tc main_v3) = dst m c :=
  (W4_of_ne m ρ c main_v3 (by decide)).trans (w3_v3 m ρ c H)
theorem w4_v12 : W4 m ρ c (Proc.devRef .tc main_v12) = dcol m c :=
  (W4_arr m ρ c 2).trans ((((dat1 (V3 m ρ) c).arrAt_in 2 rfl _).trans (A_eq1 (V3 m ρ) c 2)).trans (w3_v12 m ρ c H))
theorem w4_v28 : W4 m ρ c (Proc.devRef .tc main_v28) = wcol m c :=
  (W4_of_ne m ρ c main_v28 (by decide)).trans (w3_v28 m ρ c H)

-- boundary 5: after launch 2
theorem w5_v44 : W5 m ρ c (Proc.devRef .tc main_v44) = h1 m c :=
  (W5_arr m ρ c 2).trans ((H.p2 (V4 m ρ) c).trans (congr (congrArg (Cert.Net.mm (F := Ideal)) (w4_v43 m ρ c H)) (w4_arg4 m ρ c H)))
theorem w5_arg5 : W5 m ρ c (Proc.devRef .tc main_arg5) = m ((c : Thread nD τ).loc main_arg5) :=
  (W5_of_ne m ρ c main_arg5 (by decide)).trans (w4_arg5 m ρ c H)
theorem w5_arg6 : W5 m ρ c (Proc.devRef .tc main_arg6) = m ((c : Thread nD τ).loc main_arg6) :=
  (W5_of_ne m ρ c main_arg6 (by decide)).trans (w4_arg6 m ρ c H)
theorem w5_arg7 : W5 m ρ c (Proc.devRef .tc main_arg7) = m ((c : Thread nD τ).loc main_arg7) :=
  (W5_of_ne m ρ c main_arg7 (by decide)).trans (w4_arg7 m ρ c H)
theorem w5_arg8 : W5 m ρ c (Proc.devRef .tc main_arg8) = m ((c : Thread nD τ).loc main_arg8) :=
  (W5_of_ne m ρ c main_arg8 (by decide)).trans (w4_arg8 m ρ c H)
theorem w5_arg9 : W5 m ρ c (Proc.devRef .tc main_arg9) = m ((c : Thread nD τ).loc main_arg9) :=
  (W5_of_ne m ρ c main_arg9 (by decide)).trans (w4_arg9 m ρ c H)
theorem w5_arg10 : W5 m ρ c (Proc.devRef .tc main_arg10) = m ((c : Thread nD τ).loc main_arg10) :=
  (W5_of_ne m ρ c main_arg10 (by decide)).trans (w4_arg10 m ρ c H)
theorem w5_arg11 : W5 m ρ c (Proc.devRef .tc main_arg11) = m ((c : Thread nD τ).loc main_arg11) :=
  (W5_of_ne m ρ c main_arg11 (by decide)).trans (w4_arg11 m ρ c H)
theorem w5_v1 : W5 m ρ c (Proc.devRef .tc main_v1) = src m c :=
  (W5_of_ne m ρ c main_v1 (by decide)).trans (w4_v1 m ρ c H)
theorem w5_v3 : W5 m ρ c (Proc.devRef .tc main_v3) = dst m c :=
  (W5_of_ne m ρ c main_v3 (by decide)).trans (w4_v3 m ρ c H)
theorem w5_v12 : W5 m ρ c (Proc.devRef .tc main_v12) = dcol m c :=
  (W5_of_ne m ρ c main_v12 (by decide)).trans (w4_v12 m ρ c H)
theorem w5_v28 : W5 m ρ c (Proc.devRef .tc main_v28) = wcol m c :=
  (W5_of_ne m ρ c main_v28 (by decide)).trans (w4_v28 m ρ c H)

-- boundary 6: after the stretch hostOps3
theorem w6_v56 : W6 m ρ c (Proc.devRef .tc main_v56) = Cert.Net.agg (src m c) (dst m c) (wcol m c) (h1 m c) :=
  (hostOps3_agg (W5 m ρ c)).trans (congr (congr (congr (congrArg (Cert.Net.agg (F := Ideal)) (w5_v1 m ρ c H)) (w5_v3 m ρ c H)) (w5_v28 m ρ c H)) (w5_v44 m ρ c H))
theorem w6_v57 : W6 m ρ c (Proc.devRef .tc main_v57) = brow1 m c :=
  (hostOps3_brow (W5 m ρ c)).trans (congrArg (fun z => shapeCast S1x64 z shapeCasts_S64_S1x64) (w5_arg5 m ρ c H))
theorem w6_v44 : W6 m ρ c (Proc.devRef .tc main_v44) = h1 m c :=
  (hostOps3_keep (W5 m ρ c) main_v44 (by decide)).trans (w5_v44 m ρ c H)
theorem w6_arg6 : W6 m ρ c (Proc.devRef .tc main_arg6) = m ((c : Thread nD τ).loc main_arg6) :=
  (hostOps3_keep (W5 m ρ c) main_arg6 (by decide)).trans (w5_arg6 m ρ c H)
theorem w6_arg7 : W6 m ρ c (Proc.devRef .tc main_arg7) = m ((c : Thread nD τ).loc main_arg7) :=
  (hostOps3_keep (W5 m ρ c) main_arg7 (by decide)).trans (w5_arg7 m ρ c H)
theorem w6_arg8 : W6 m ρ c (Proc.devRef .tc main_arg8) = m ((c : Thread nD τ).loc main_arg8) :=
  (hostOps3_keep (W5 m ρ c) main_arg8 (by decide)).trans (w5_arg8 m ρ c H)
theorem w6_arg9 : W6 m ρ c (Proc.devRef .tc main_arg9) = m ((c : Thread nD τ).loc main_arg9) :=
  (hostOps3_keep (W5 m ρ c) main_arg9 (by decide)).trans (w5_arg9 m ρ c H)
theorem w6_arg10 : W6 m ρ c (Proc.devRef .tc main_arg10) = m ((c : Thread nD τ).loc main_arg10) :=
  (hostOps3_keep (W5 m ρ c) main_arg10 (by decide)).trans (w5_arg10 m ρ c H)
theorem w6_arg11 : W6 m ρ c (Proc.devRef .tc main_arg11) = m ((c : Thread nD τ).loc main_arg11) :=
  (hostOps3_keep (W5 m ρ c) main_arg11 (by decide)).trans (w5_arg11 m ρ c H)
theorem w6_v1 : W6 m ρ c (Proc.devRef .tc main_v1) = src m c :=
  (hostOps3_keep (W5 m ρ c) main_v1 (by decide)).trans (w5_v1 m ρ c H)
theorem w6_v3 : W6 m ρ c (Proc.devRef .tc main_v3) = dst m c :=
  (hostOps3_keep (W5 m ρ c) main_v3 (by decide)).trans (w5_v3 m ρ c H)
theorem w6_v12 : W6 m ρ c (Proc.devRef .tc main_v12) = dcol m c :=
  (hostOps3_keep (W5 m ρ c) main_v12 (by decide)).trans (w5_v12 m ρ c H)
theorem w6_v28 : W6 m ρ c (Proc.devRef .tc main_v28) = wcol m c :=
  (hostOps3_keep (W5 m ρ c) main_v28 (by decide)).trans (w5_v28 m ρ c H)

-- boundary 7: after launch 3
theorem w7_v58 : W7 m ρ c (Proc.devRef .tc main_v58) = x2 m c :=
  (W7_arr m ρ c 4).trans ((H.e3 (V6 m ρ) c).trans (congr (congr (congr (congrArg (Cert.Net.fin (F := Ideal)) (w6_v56 m ρ c H)) (w6_v44 m ρ c H)) (w6_v12 m ρ c H)) (w6_v57 m ρ c H)))
theorem w7_arg6 : W7 m ρ c (Proc.devRef .tc main_arg6) = m ((c : Thread nD τ).loc main_arg6) :=
  (W7_of_ne m ρ c main_arg6 (by decide)).trans (w6_arg6 m ρ c H)
theorem w7_arg7 : W7 m ρ c (Proc.devRef .tc main_arg7) = m ((c : Thread nD τ).loc main_arg7) :=
  (W7_of_ne m ρ c main_arg7 (by decide)).trans (w6_arg7 m ρ c H)
theorem w7_arg8 : W7 m ρ c (Proc.devRef .tc main_arg8) = m ((c : Thread nD τ).loc main_arg8) :=
  (W7_of_ne m ρ c main_arg8 (by decide)).trans (w6_arg8 m ρ c H)
theorem w7_arg9 : W7 m ρ c (Proc.devRef .tc main_arg9) = m ((c : Thread nD τ).loc main_arg9) :=
  (W7_of_ne m ρ c main_arg9 (by decide)).trans (w6_arg9 m ρ c H)
theorem w7_arg10 : W7 m ρ c (Proc.devRef .tc main_arg10) = m ((c : Thread nD τ).loc main_arg10) :=
  (W7_of_ne m ρ c main_arg10 (by decide)).trans (w6_arg10 m ρ c H)
theorem w7_arg11 : W7 m ρ c (Proc.devRef .tc main_arg11) = m ((c : Thread nD τ).loc main_arg11) :=
  (W7_of_ne m ρ c main_arg11 (by decide)).trans (w6_arg11 m ρ c H)
theorem w7_v1 : W7 m ρ c (Proc.devRef .tc main_v1) = src m c :=
  (W7_of_ne m ρ c main_v1 (by decide)).trans (w6_v1 m ρ c H)
theorem w7_v3 : W7 m ρ c (Proc.devRef .tc main_v3) = dst m c :=
  (W7_of_ne m ρ c main_v3 (by decide)).trans (w6_v3 m ρ c H)
theorem w7_v12 : W7 m ρ c (Proc.devRef .tc main_v12) = dcol m c :=
  (W7_arr m ρ c 2).trans ((((dat3 (V6 m ρ) c).arrAt_in 2 rfl _).trans (A_eq3 (V6 m ρ) c 2)).trans (w6_v12 m ρ c H))
theorem w7_v28 : W7 m ρ c (Proc.devRef .tc main_v28) = wcol m c :=
  (W7_of_ne m ρ c main_v28 (by decide)).trans (w6_v28 m ρ c H)

-- boundary 8: after launch 4
theorem w8_v59 : W8 m ρ c (Proc.devRef .tc main_v59) = h2 m c :=
  (W8_arr m ρ c 2).trans ((H.p4 (V7 m ρ) c).trans (congr (congrArg (Cert.Net.mm (F := Ideal)) (w7_v58 m ρ c H)) (w7_arg6 m ρ c H)))
theorem w8_arg7 : W8 m ρ c (Proc.devRef .tc main_arg7) = m ((c : Thread nD τ).loc main_arg7) :=
  (W8_of_ne m ρ c main_arg7 (by decide)).trans (w7_arg7 m ρ c H)
theorem w8_arg8 : W8 m ρ c (Proc.devRef .tc main_arg8) = m ((c : Thread nD τ).loc main_arg8) :=
  (W8_of_ne m ρ c main_arg8 (by decide)).trans (w7_arg8 m ρ c H)
theorem w8_arg9 : W8 m ρ c (Proc.devRef .tc main_arg9) = m ((c : Thread nD τ).loc main_arg9) :=
  (W8_of_ne m ρ c main_arg9 (by decide)).trans (w7_arg9 m ρ c H)
theorem w8_arg10 : W8 m ρ c (Proc.devRef .tc main_arg10) = m ((c : Thread nD τ).loc main_arg10) :=
  (W8_of_ne m ρ c main_arg10 (by decide)).trans (w7_arg10 m ρ c H)
theorem w8_arg11 : W8 m ρ c (Proc.devRef .tc main_arg11) = m ((c : Thread nD τ).loc main_arg11) :=
  (W8_of_ne m ρ c main_arg11 (by decide)).trans (w7_arg11 m ρ c H)
theorem w8_v1 : W8 m ρ c (Proc.devRef .tc main_v1) = src m c :=
  (W8_of_ne m ρ c main_v1 (by decide)).trans (w7_v1 m ρ c H)
theorem w8_v3 : W8 m ρ c (Proc.devRef .tc main_v3) = dst m c :=
  (W8_of_ne m ρ c main_v3 (by decide)).trans (w7_v3 m ρ c H)
theorem w8_v12 : W8 m ρ c (Proc.devRef .tc main_v12) = dcol m c :=
  (W8_of_ne m ρ c main_v12 (by decide)).trans (w7_v12 m ρ c H)
theorem w8_v28 : W8 m ρ c (Proc.devRef .tc main_v28) = wcol m c :=
  (W8_of_ne m ρ c main_v28 (by decide)).trans (w7_v28 m ρ c H)

-- boundary 9: after the stretch hostOps5
theorem w9_v71 : W9 m ρ c (Proc.devRef .tc main_v71) = Cert.Net.agg (src m c) (dst m c) (wcol m c) (h2 m c) :=
  (hostOps5_agg (W8 m ρ c)).trans (congr (congr (congr (congrArg (Cert.Net.agg (F := Ideal)) (w8_v1 m ρ c H)) (w8_v3 m ρ c H)) (w8_v28 m ρ c H)) (w8_v59 m ρ c H))
theorem w9_v72 : W9 m ρ c (Proc.devRef .tc main_v72) = brow2 m c :=
  (hostOps5_brow (W8 m ρ c)).trans (congrArg (fun z => shapeCast S1x64 z shapeCasts_S64_S1x64) (w8_arg7 m ρ c H))
theorem w9_v59 : W9 m ρ c (Proc.devRef .tc main_v59) = h2 m c :=
  (hostOps5_keep (W8 m ρ c) main_v59 (by decide)).trans (w8_v59 m ρ c H)
theorem w9_arg8 : W9 m ρ c (Proc.devRef .tc main_arg8) = m ((c : Thread nD τ).loc main_arg8) :=
  (hostOps5_keep (W8 m ρ c) main_arg8 (by decide)).trans (w8_arg8 m ρ c H)
theorem w9_arg9 : W9 m ρ c (Proc.devRef .tc main_arg9) = m ((c : Thread nD τ).loc main_arg9) :=
  (hostOps5_keep (W8 m ρ c) main_arg9 (by decide)).trans (w8_arg9 m ρ c H)
theorem w9_arg10 : W9 m ρ c (Proc.devRef .tc main_arg10) = m ((c : Thread nD τ).loc main_arg10) :=
  (hostOps5_keep (W8 m ρ c) main_arg10 (by decide)).trans (w8_arg10 m ρ c H)
theorem w9_arg11 : W9 m ρ c (Proc.devRef .tc main_arg11) = m ((c : Thread nD τ).loc main_arg11) :=
  (hostOps5_keep (W8 m ρ c) main_arg11 (by decide)).trans (w8_arg11 m ρ c H)
theorem w9_v1 : W9 m ρ c (Proc.devRef .tc main_v1) = src m c :=
  (hostOps5_keep (W8 m ρ c) main_v1 (by decide)).trans (w8_v1 m ρ c H)
theorem w9_v3 : W9 m ρ c (Proc.devRef .tc main_v3) = dst m c :=
  (hostOps5_keep (W8 m ρ c) main_v3 (by decide)).trans (w8_v3 m ρ c H)
theorem w9_v12 : W9 m ρ c (Proc.devRef .tc main_v12) = dcol m c :=
  (hostOps5_keep (W8 m ρ c) main_v12 (by decide)).trans (w8_v12 m ρ c H)
theorem w9_v28 : W9 m ρ c (Proc.devRef .tc main_v28) = wcol m c :=
  (hostOps5_keep (W8 m ρ c) main_v28 (by decide)).trans (w8_v28 m ρ c H)

-- boundary 10: after launch 5
theorem w10_v73 : W10 m ρ c (Proc.devRef .tc main_v73) = x3 m c :=
  (W10_arr m ρ c 4).trans ((H.e5 (V9 m ρ) c).trans (congr (congr (congr (congrArg (Cert.Net.fin (F := Ideal)) (w9_v71 m ρ c H)) (w9_v59 m ρ c H)) (w9_v12 m ρ c H)) (w9_v72 m ρ c H)))
theorem w10_arg8 : W10 m ρ c (Proc.devRef .tc main_arg8) = m ((c : Thread nD τ).loc main_arg8) :=
  (W10_of_ne m ρ c main_arg8 (by decide)).trans (w9_arg8 m ρ c H)
theorem w10_arg9 : W10 m ρ c (Proc.devRef .tc main_arg9) = m ((c : Thread nD τ).loc main_arg9) :=
  (W10_of_ne m ρ c main_arg9 (by decide)).trans (w9_arg9 m ρ c H)
theorem w10_arg10 : W10 m ρ c (Proc.devRef .tc main_arg10) = m ((c : Thread nD τ).loc main_arg10) :=
  (W10_of_ne m ρ c main_arg10 (by decide)).trans (w9_arg10 m ρ c H)
theorem w10_arg11 : W10 m ρ c (Proc.devRef .tc main_arg11) = m ((c : Thread nD τ).loc main_arg11) :=
  (W10_of_ne m ρ c main_arg11 (by decide)).trans (w9_arg11 m ρ c H)
theorem w10_v1 : W10 m ρ c (Proc.devRef .tc main_v1) = src m c :=
  (W10_of_ne m ρ c main_v1 (by decide)).trans (w9_v1 m ρ c H)
theorem w10_v3 : W10 m ρ c (Proc.devRef .tc main_v3) = dst m c :=
  (W10_of_ne m ρ c main_v3 (by decide)).trans (w9_v3 m ρ c H)
theorem w10_v12 : W10 m ρ c (Proc.devRef .tc main_v12) = dcol m c :=
  (W10_arr m ρ c 2).trans ((((dat5 (V9 m ρ) c).arrAt_in 2 rfl _).trans (A_eq5 (V9 m ρ) c 2)).trans (w9_v12 m ρ c H))
theorem w10_v28 : W10 m ρ c (Proc.devRef .tc main_v28) = wcol m c :=
  (W10_of_ne m ρ c main_v28 (by decide)).trans (w9_v28 m ρ c H)

-- boundary 11: after launch 6
theorem w11_v74 : W11 m ρ c (Proc.devRef .tc main_v74) = h3 m c :=
  (W11_arr m ρ c 2).trans ((H.p6 (V10 m ρ) c).trans (congr (congrArg (Cert.Net.mm (F := Ideal)) (w10_v73 m ρ c H)) (w10_arg8 m ρ c H)))
theorem w11_arg9 : W11 m ρ c (Proc.devRef .tc main_arg9) = m ((c : Thread nD τ).loc main_arg9) :=
  (W11_of_ne m ρ c main_arg9 (by decide)).trans (w10_arg9 m ρ c H)
theorem w11_arg10 : W11 m ρ c (Proc.devRef .tc main_arg10) = m ((c : Thread nD τ).loc main_arg10) :=
  (W11_of_ne m ρ c main_arg10 (by decide)).trans (w10_arg10 m ρ c H)
theorem w11_arg11 : W11 m ρ c (Proc.devRef .tc main_arg11) = m ((c : Thread nD τ).loc main_arg11) :=
  (W11_of_ne m ρ c main_arg11 (by decide)).trans (w10_arg11 m ρ c H)
theorem w11_v1 : W11 m ρ c (Proc.devRef .tc main_v1) = src m c :=
  (W11_of_ne m ρ c main_v1 (by decide)).trans (w10_v1 m ρ c H)
theorem w11_v3 : W11 m ρ c (Proc.devRef .tc main_v3) = dst m c :=
  (W11_of_ne m ρ c main_v3 (by decide)).trans (w10_v3 m ρ c H)
theorem w11_v12 : W11 m ρ c (Proc.devRef .tc main_v12) = dcol m c :=
  (W11_of_ne m ρ c main_v12 (by decide)).trans (w10_v12 m ρ c H)
theorem w11_v28 : W11 m ρ c (Proc.devRef .tc main_v28) = wcol m c :=
  (W11_of_ne m ρ c main_v28 (by decide)).trans (w10_v28 m ρ c H)

-- boundary 12: after the stretch hostOps7
theorem w12_v86 : W12 m ρ c (Proc.devRef .tc main_v86) = Cert.Net.agg (src m c) (dst m c) (wcol m c) (h3 m c) :=
  (hostOps7_agg (W11 m ρ c)).trans (congr (congr (congr (congrArg (Cert.Net.agg (F := Ideal)) (w11_v1 m ρ c H)) (w11_v3 m ρ c H)) (w11_v28 m ρ c H)) (w11_v74 m ρ c H))
theorem w12_v87 : W12 m ρ c (Proc.devRef .tc main_v87) = brow3 m c :=
  (hostOps7_brow (W11 m ρ c)).trans (congrArg (fun z => shapeCast S1x64 z shapeCasts_S64_S1x64) (w11_arg9 m ρ c H))
theorem w12_v74 : W12 m ρ c (Proc.devRef .tc main_v74) = h3 m c :=
  (hostOps7_keep (W11 m ρ c) main_v74 (by decide)).trans (w11_v74 m ρ c H)
theorem w12_arg10 : W12 m ρ c (Proc.devRef .tc main_arg10) = m ((c : Thread nD τ).loc main_arg10) :=
  (hostOps7_keep (W11 m ρ c) main_arg10 (by decide)).trans (w11_arg10 m ρ c H)
theorem w12_arg11 : W12 m ρ c (Proc.devRef .tc main_arg11) = m ((c : Thread nD τ).loc main_arg11) :=
  (hostOps7_keep (W11 m ρ c) main_arg11 (by decide)).trans (w11_arg11 m ρ c H)
theorem w12_v12 : W12 m ρ c (Proc.devRef .tc main_v12) = dcol m c :=
  (hostOps7_keep (W11 m ρ c) main_v12 (by decide)).trans (w11_v12 m ρ c H)

-- boundary 13: after launch 7
theorem w13_v88 : W13 m ρ c (Proc.devRef .tc main_v88) = x4 m c :=
  (W13_arr m ρ c 4).trans ((H.e7 (V12 m ρ) c).trans (congr (congr (congr (congrArg (Cert.Net.fin (F := Ideal)) (w12_v86 m ρ c H)) (w12_v74 m ρ c H)) (w12_v12 m ρ c H)) (w12_v87 m ρ c H)))
theorem w13_arg10 : W13 m ρ c (Proc.devRef .tc main_arg10) = m ((c : Thread nD τ).loc main_arg10) :=
  (W13_of_ne m ρ c main_arg10 (by decide)).trans (w12_arg10 m ρ c H)
theorem w13_arg11 : W13 m ρ c (Proc.devRef .tc main_arg11) = m ((c : Thread nD τ).loc main_arg11) :=
  (W13_of_ne m ρ c main_arg11 (by decide)).trans (w12_arg11 m ρ c H)

-- boundary 14: after the stretch hostOps8
theorem w14_v89 : W14 m ρ c (Proc.devRef .tc main_v89) = browO m c :=
  (hostOps8_brow (W13 m ρ c)).trans (congrArg (fun z => shapeCast S1x16 z shapeCasts_S16_S1x16) (w13_arg11 m ρ c H))
theorem w14_v88 : W14 m ρ c (Proc.devRef .tc main_v88) = x4 m c :=
  (hostOps8_keep (W13 m ρ c) main_v88 (by decide)).trans (w13_v88 m ρ c H)
theorem w14_arg10 : W14 m ρ c (Proc.devRef .tc main_arg10) = m ((c : Thread nD τ).loc main_arg10) :=
  (hostOps8_keep (W13 m ρ c) main_arg10 (by decide)).trans (w13_arg10 m ρ c H)

-- boundary 15: after launch 8
theorem w15_v90 : W15 m ρ c (Proc.devRef .tc main_v90) = out m c :=
  (W15_arr m ρ c 3).trans ((H.h8 (V14 m ρ) c).trans (congr (congr (congrArg (Cert.Net.head (F := Ideal)) (w14_v88 m ρ c H)) (w14_arg10 m ρ c H)) (w14_v89 m ρ c H)))

/-- The result buffer at the end of the fold is the network's result. -/
theorem result : W15 m ρ c (Proc.devRef .tc main_v90) = out m c := w15_v90 m ρ c H
end

end Cert.KernelIdeal.Fold

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibDot.lean ====
/-
  The host's `dot_general` read at an index: for the dimension numbers that contract the left operand's second
  axis with the right operand's first (rows × inner times inner × columns, no batch axis), the product at the
  extended reals is, at `(i, j)`, the sum over the inner coordinate `k` of `lhs (i, k) · rhs (k, j)`,
  whatever the precision and the schedule key. Beside the same fact for a product into the zero accumulator this
  makes a row-tiled product and the whole product one function of the two matrices.
-/
import Idealize.ShloMosaic.PureOps.Ideal.Laws
import Idealize.ShloMosaic.Lib.ValueIdx

noncomputable section

namespace Idealize.ShloMosaic.ValueIdx

/-- The host's plain product, at `(i, j)`, as a sum over the inner coordinate. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibRecast.lean ====
/-
  A vector recast as a one-row matrix or as a one-column matrix, read at an index: the row's entry k, and the column's
  entry e, are the vector's entries k and e. (A reshape keeps the row-major position, and the position of (0, k) in a
  1 × n matrix, like that of (e, 0) in an n × 1 matrix, is the position in the vector.)
-/
import Idealize.ShloMosaic.Lib.ValueIdx
import Idealize.ShloMosaic.Lib.Pipeline.Value

noncomputable section

namespace Cert.LibRecast

open Idealize.ShloMosaic Idealize.ShloMosaic.ValueIdx

variable {α : Type}

/-- A vector recast as one row, at (0, k). -/
theorem as_row_apply {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rewrite [Shape.rowMajor_val_two, Shape.rowMajor_val_one]
  show k.val = 0 * n + k.val
  omega

/-- A vector recast as one column, at (e, 0). -/
theorem as_column_apply {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) := by
  refine shapeCast_apply x h (ix2 e (0 : Fin 1)) (ix1 e) ?_
  rewrite [Shape.rowMajor_val_two, Shape.rowMajor_val_one]
  show e.val = e.val * 1 + 0
  omega

end Cert.LibRecast

end
-- ==== Proof.LibRowColumn.lean ====
/-
  A column of per-row values and a row of per-column values spread over a matrix, read at an index.
  A column `x` of shape n × 1 spread across c columns holds `x (p, 0)` at `(p, q)`; a row `y` of shape 1 × c spread
  down n rows holds `y (0, q)` at `(p, q)` — both for the vector broadcast a kernel body applies to a block and for
  the host's `broadcast_in_dim` along the axes `[0, 1]`. A scalar spread over any shape holds the scalar everywhere.
  And a vector recast as a column (n × 1), or as a row (1 × c), is the vector spread by `broadcast_in_dim` along
  axis 0, or along axis 1: both hold the vector's entry e at `(e, 0)`, its entry k at `(0, k)`.
-/
import Idealize.ShloMosaic.Lib.Pipeline.Value
import Idealize.ShloMosaic.Lib.ValueIdx
import proofs.«176425_j29858612642432_1_alg».proof.Proof.LibRecast

noncomputable section

namespace Cert.LibRowColumn

open Idealize.ShloMosaic Idealize.ShloMosaic.ValueIdx

variable {n c : ℕ} {α : Type}

/-- The one coordinate of an axis of extent 1 is 0. -/
theorem fin_one_val (z : Fin 1) : z.val = 0 := by have := z.isLt; omega

/-- A column spread across the columns by a vector broadcast, read at `(p, q)`. -/
theorem spread_col_apply (x : (⟨2, ![n, 1]⟩ : Shape).Idx → α) (h : (⟨2, ![n, 1]⟩ : Shape).Broadcasts ⟨2, ![n, c]⟩)
    (p : Fin n) (q : Fin c) : broadcastTo ⟨2, ![n, c]⟩ x h (ix2 p q) = x (ix2 p (0 : Fin 1)) := by
  refine broadcastTo_apply x h (ix2 p q) (ix2 p (0 : Fin 1)) fun a => ?_
  match a with
  | ⟨0, _⟩ =>
    show p.val = if n = 1 then 0 else p.val
    split_ifs with h1
    · subst h1; exact fin_one_val p
    · rfl
  | ⟨1, _⟩ => exact (if_pos rfl).symm

/-- A row spread down the rows by a vector broadcast, read at `(p, q)`. -/
theorem spread_row_apply (y : (⟨2, ![1, c]⟩ : Shape).Idx → α) (h : (⟨2, ![1, c]⟩ : Shape).Broadcasts ⟨2, ![n, c]⟩)
    (p : Fin n) (q : Fin c) : broadcastTo ⟨2, ![n, c]⟩ y h (ix2 p q) = y (ix2 (0 : Fin 1) q) := by
  refine broadcastTo_apply y h (ix2 p q) (ix2 (0 : Fin 1) q) fun a => ?_
  match a with
  | ⟨0, _⟩ => exact (if_pos rfl).symm
  | ⟨1, _⟩ =>
    show q.val = if c = 1 then 0 else q.val
    split_ifs with h1
    · subst h1; exact fin_one_val q
    · rfl

/-- A column spread across the columns by the host's `broadcast_in_dim` along `[0, 1]`, read at `(p, q)`. -/
theorem host_col_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p (0 : Fin 1)) := by
  refine broadcastInDim_apply ![0, 1] h x (ix2 p q) (ix2 p (0 : Fin 1)) fun a => ?_
  match a with
  | ⟨0, _⟩ =>
    show p.val = if n = 1 then 0 else p.val
    split_ifs with h1
    · subst h1; exact fin_one_val p
    · rfl
  | ⟨1, _⟩ => exact (if_pos rfl).symm

/-- A row spread down the rows by the host's `broadcast_in_dim` along `[0, 1]`, read at `(p, q)`. -/
theorem host_row_apply (y : (⟨2, ![1, c]⟩ : Shape).Idx → α)
    (h : (⟨2, ![1, c]⟩ : Shape).BroadcastsInDim ⟨2, ![n, c]⟩ ![0, 1]) (p : Fin n) (q : Fin c) :
    broadcastInDim ⟨2, ![n, c]⟩ ![0, 1] h y (ix2 p q) = y (ix2 (0 : Fin 1) q) := by
  refine broadcastInDim_apply ![0, 1] h y (ix2 p q) (ix2 (0 : Fin 1) q) fun a => ?_
  match a with
  | ⟨0, _⟩ => exact (if_pos rfl).symm
  | ⟨1, _⟩ =>
    show q.val = if c = 1 then 0 else q.val
    split_ifs with h1
    · subst h1; exact fin_one_val q
    · rfl

/-- A scalar spread over any shape by the host's `broadcast_in_dim` holds the scalar at every index. -/
theorem host_scalar_apply {t : Shape} (z : (⟨0, ![]⟩ : Shape).Idx → α)
    (h : (⟨0, ![]⟩ : Shape).BroadcastsInDim t ![]) (j : t.Idx) :
    broadcastInDim t ![] h z j = z ix0 :=
  broadcastInDim_apply ![] h z j ix0 fun a => a.elim0

/-- A vector recast as a column is the vector spread along axis 0 into the column. -/
theorem column_recast_eq_spread (d : (⟨1, ![n]⟩ : Shape).Idx → α) (hs : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ d hs = broadcastInDim ⟨2, ![n, 1]⟩ ![0] hb d := by
  funext j
  obtain ⟨e, z, rfl⟩ : ∃ (e : Fin n) (z : Fin 1), j = ix2 e z := ⟨j 0, j 1, eq_ix2 j⟩
  obtain rfl : z = 0 := Fin.ext (fin_one_val z)
  rw [Cert.LibRecast.as_column_apply d hs e]
  refine (broadcastInDim_apply ![0] hb d (ix2 e (0 : Fin 1)) (ix1 e) fun a => ?_).symm
  match a with
  | ⟨0, _⟩ =>
    show e.val = if n = 1 then 0 else e.val
    split_ifs with h1
    · subst h1; exact fin_one_val e
    · rfl

/-- A vector recast as a row is the vector spread along axis 1 into the row. -/
theorem row_recast_eq_spread (b : (⟨1, ![c]⟩ : Shape).Idx → α) (hs : (⟨1, ![c]⟩ : Shape).ShapeCasts ⟨2, ![1, c]⟩)
    (hb : (⟨1, ![c]⟩ : Shape).BroadcastsInDim ⟨2, ![1, c]⟩ ![1]) :
    shapeCast ⟨2, ![1, c]⟩ b hs = broadcastInDim ⟨2, ![1, c]⟩ ![1] hb b := by
  funext j
  obtain ⟨z, k, rfl⟩ : ∃ (z : Fin 1) (k : Fin c), j = ix2 z k := ⟨j 0, j 1, eq_ix2 j⟩
  obtain rfl : z = 0 := Fin.ext (fin_one_val z)
  rw [Cert.LibRecast.as_row_apply b hs k]
  refine (broadcastInDim_apply ![1] hb b (ix2 (0 : Fin 1) k) (ix1 k) fun a => ?_).symm
  match a with
  | ⟨0, _⟩ =>
    show k.val = if c = 1 then 0 else k.val
    split_ifs with h1
    · subst h1; exact fin_one_val k
    · rfl

end Cert.LibRowColumn

end
-- ==== Proof.LaunchProj.lean ====
/-
  The four projection launches and the last launch, each as one whole-array function.

  A projection launch writes, at grid point t, rows 4000·t … 4000·t + 3999 of its output: the product of the same
  rows of the features with the whole weight matrix. Row i of a product depends on row i of the left factor only,
  so block t of the whole product is the product of block t; the 25 blocks tile the 100000 rows, hence the output
  array ends as the whole product. The last launch adds the bias row, spread down the rows, to such a product.
-/
import proofs.«176425_j29858612642432_1_alg».proof.Proof.Launches
import proofs.«176425_j29858612642432_1_alg».proof.Proof.LibMatmul
import proofs.«176425_j29858612642432_1_alg».proof.Proof.LibDot
import proofs.«176425_j29858612642432_1_alg».proof.Proof.LibRowColumn
import Idealize.ShloMosaic.Lib.Pipeline.Value
import Idealize.ShloMosaic.Lib.ValueIdx

noncomputable section

namespace Cert.KernelIdeal.Launches

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-rectangle access. -/
theorem zero_offsets : (![0, 0] : Fin 2 → Nat) = fun _ => 0 := funext fun a => by fin_cases a <;> rfl

/-! ## The products at an index -/

/-- The dimension numbers of the block product are the plain ones: rows × inner times inner × columns. -/
theorem dims_block64 : dot_S4000x64_S64x64_S4000x64_1_0_0_1_n_n = DotDims.plain 4000 64 64 := rfl

/-- A block's payload, at (r, q): the sum over the inner coordinate of the products of the entries. -/
theorem k0_pay1_apply (x : Vec Ideal S4000x64 .f32) (w : Vec Ideal S64x64 .f32) (r : Fin 4000) (q : Fin 64) :
    k0_pay1 (F := Ideal) x w (ix2 r q) = ∑ k : Fin 64, x (ix2 r k) * w (ix2 k q) := by
  unfold k0_pay1
  rw [dims_block64]
  exact matmul_plain_zero_apply 4000 64 64 none _ _ r q

/-- The whole product at (i, q): the sum over the inner coordinate of the products of the entries. -/
theorem mm_apply (x : S100000x64.Idx → EReal) (w : S64x64.Idx → EReal) (i : Fin 100000) (q : Fin 64) :
    Cert.Net.mm (F := Ideal) x w (ix2 i q) = ∑ k : Fin 64, x (ix2 i k) * w (ix2 k q) := by
  unfold Cert.Net.mm
  exact dotGeneral_plain_apply 100000 64 64 none .single x w i q

/-! ## Launch 0 -/

/-- The block indices of launch 0's windows: the features and the output move down the rows with the grid point,
    the weights stay. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t is rows 4000·t … 4000·t + 3999 of the array. -/
theorem feature_block0 (V : Entry) (c : Dev nD) (t : Fin cfg0.N) (y : S4000x64.Idx) (i : S100000x64.Idx)
    (h0 : (i 0).val = t.val * 4000 + (y 0).val) (h1 : (i 1).val = (y 1).val) :
    (iblk0 (F := Ideal) V c 0 t : Vec Ideal S4000x64 .f32) y = (V c main_arg0 : S100000x64.Idx → EReal) i := by
  obtain ⟨e0, e1, -⟩ := block_index0 t
  unfold iblk0
  rw [View.read_apply]
  show V c main_arg0 _ = V c main_arg0 _
  congr 1
  funext a
  apply Fin.ext
  match a with
  | ⟨0, _⟩ => show win0_0.index t 0 * 4000 + 1 * (y 0).val = (i 0).val; rw [e0, h0]; omega
  | ⟨1, _⟩ => show win0_0.index t 1 * 64 + 1 * (y 1).val = (i 1).val; rw [e1, h1]; omega

/-- The weights' block at every point is the whole matrix. -/
theorem weight_block0 (V : Entry) (c : Dev nD) (t : Fin cfg0.N) (y : S64x64.Idx) :
    (iblk0 (F := Ideal) V c 1 t : Vec Ideal S64x64 .f32) y = (V c main_arg2 : S64x64.Idx → EReal) y := by
  obtain ⟨-, -, e0, e1, -⟩ := block_index0 t
  unfold iblk0
  rw [View.read_apply]
  show V c main_arg2 _ = V c main_arg2 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- What point t writes back is block t of the whole product. -/
theorem flushed0 (V : Entry) (c : Dev nD) (t : Fin cfg0.N) :
    (dat0 (F := Ideal) V c).flushed 2 t
      = ((cfg0.win 2).blk t).view.read (Elt Ideal) (Cert.Net.mm (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S4000x64) zero_offsets, View.ld_unit_zero (S := S64x64) zero_offsets]
  obtain ⟨-, -, -, -, e0, e1⟩ := block_index0 t
  refine funext fun (y : S4000x64.Idx) => ?_
  obtain ⟨p, q, rfl⟩ : ∃ (p : Fin 4000) (q : Fin 64), y = ix2 p q := ⟨y 0, y 1, eq_ix2 y⟩
  have hi : t.val * 4000 + p.val < 100000 := by
    have := t.isLt; have hN : cfg0.N = 25 := rfl; have := p.isLt; omega
  have hemb : ((cfg0.win 2).blk t).view.emb (ix2 p q) = (ix2 (⟨t.val * 4000 + p.val, hi⟩ : Fin 100000) q : S100000x64.Idx) := by
    funext a
    apply Fin.ext
    match a with
    | ⟨0, _⟩ => show win0_2.index t 0 * 4000 + 1 * p.val = t.val * 4000 + p.val; rw [e0]; omega
    | ⟨1, _⟩ => show win0_2.index t 1 * 64 + 1 * q.val = q.val; rw [e1]; omega
  rw [View.read_apply, hemb]
  refine (k0_pay1_apply _ _ p q).trans ((Finset.sum_congr rfl fun k _ => ?_).trans (mm_apply _ _ _ q).symm)
  rw [feature_block0 V c t (ix2 p k) (ix2 ⟨t.val * 4000 + p.val, hi⟩ k) rfl rfl, weight_block0 V c t (ix2 k q)]

/-- A row of the output array is in point t's block iff it lies in the block's range on each axis. -/
theorem mem_block0 (t : Fin cfg0.N) (i : S100000x64.Idx) :
    i ∈ ((cfg0.win 2).blk t).view.set
      ↔ ∀ a : Fin 2, win0_2.index t a * S4000x64.size a ≤ (i a).val ∧ (i a).val < win0_2.index t a * S4000x64.size a + S4000x64.size a := by
  show i ∈ ((View.whole main_v29).slice (win0_2.rect t)).set ↔ _
  rw [View.set_slice_whole, Rect.mem_set_unit]
  exact Iff.rfl

/-- Every row of the output is in the block of the point numbered by the row divided by 4000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := rfl
  refine ⟨⟨(i 0).val / 4000, by rw [hN]; omega⟩, flush0_2 _, ?_⟩
  rw [mem_block0]
  obtain ⟨-, -, -, -, e0, e1⟩ := block_index0 ⟨(i 0).val / 4000, by rw [hN]; omega⟩
  intro a
  match a with
  | ⟨0, _⟩ =>
    show win0_2.index _ 0 * 4000 ≤ (i 0).val ∧ (i 0).val < win0_2.index _ 0 * 4000 + 4000
    rw [e0]; show (i 0).val / 4000 * 4000 ≤ (i 0).val ∧ (i 0).val < (i 0).val / 4000 * 4000 + 4000; omega
  | ⟨1, _⟩ =>
    show win0_2.index _ 1 * 64 ≤ (i 1).val ∧ (i 1).val < win0_2.index _ 1 * 64 + 64
    rw [e1]; omega

/-- Launch 0 leaves the whole product of the features with the weights in its output array. -/
theorem proj0 : Proj0 := fun V c =>
  (dat0 (F := Ideal) V c).arrAt_eq_of_cover 2 (Cert.Net.mm (V c main_arg0) (V c main_arg2))
    (fun t _ => flushed0 V c t) cover0

/-! ## Launch 2 -/

/-- Launch 2's payload, at (r, q): the same sum (the recast to the same shape changes nothing). -/
theorem k2_pay1_apply (x : Vec Ideal S4000x64 .f32) (w : Vec Ideal S64x64 .f32) (r : Fin 4000) (q : Fin 64) :
    k2_pay1 (F := Ideal) x w (ix2 r q) = ∑ k : Fin 64, x (ix2 r k) * w (ix2 k q) := by
  unfold k2_pay1
  rw [dims_block64, shapeCast_self]
  exact matmul_plain_zero_apply 4000 64 64 none _ _ r q

/-- The block indices of launch 2's windows: the features and the output move down the rows with the grid point,
    the weights stay. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The features' block at point t is rows 4000·t … 4000·t + 3999 of the array. -/
theorem feature_block2 (V : Entry) (c : Dev nD) (t : Fin cfg2.N) (y : S4000x64.Idx) (i : S100000x64.Idx)
    (h0 : (i 0).val = t.val * 4000 + (y 0).val) (h1 : (i 1).val = (y 1).val) :
    (iblk2 (F := Ideal) V c 0 t : Vec Ideal S4000x64 .f32) y = (V c main_v43 : S100000x64.Idx → EReal) i := by
  obtain ⟨e0, e1, -⟩ := block_index2 t
  unfold iblk2
  rw [View.read_apply]
  show V c main_v43 _ = V c main_v43 _
  congr 1
  funext a
  apply Fin.ext
  match a with
  | ⟨0, _⟩ => show win2_0.index t 0 * 4000 + 1 * (y 0).val = (i 0).val; rw [e0, h0]; omega
  | ⟨1, _⟩ => show win2_0.index t 1 * 64 + 1 * (y 1).val = (i 1).val; rw [e1, h1]; omega

/-- The weights' block at every point is the whole matrix. -/
theorem weight_block2 (V : Entry) (c : Dev nD) (t : Fin cfg2.N) (y : S64x64.Idx) :
    (iblk2 (F := Ideal) V c 1 t : Vec Ideal S64x64 .f32) y = (V c main_arg4 : S64x64.Idx → EReal) y := by
  obtain ⟨-, -, e0, e1, -⟩ := block_index2 t
  unfold iblk2
  rw [View.read_apply]
  show V c main_arg4 _ = V c main_arg4 _
  congr 1
  funext a
  apply Fin.ext
  match a with
  | ⟨0, _⟩ => show win2_1.index t 0 * 64 + 1 * (y 0).val = (y 0).val; rw [e0]; omega
  | ⟨1, _⟩ => show win2_1.index t 1 * 64 + 1 * (y 1).val = (y 1).val; rw [e1]; omega

/-- What point t writes back is block t of the whole product. -/
theorem flushed2 (V : Entry) (c : Dev nD) (t : Fin cfg2.N) :
    (dat2 (F := Ideal) V c).flushed 2 t
      = ((cfg2.win 2).blk t).view.read (Elt Ideal) (Cert.Net.mm (V c main_v43) (V c main_arg4)) := by
  show (cfg2.win 2).cut (grid2.coords t) ((dat2 (F := Ideal) V c).after 2 t) = _
  rw [after2_2]
  unfold out2_2
  rw [View.canon_unit_zero zero_offsets]
  simp only [View.ld_unit_zero (S := S4000x64) zero_offsets, View.ld_unit_zero (S := S64x64) zero_offsets]
  obtain ⟨-, -, -, -, e0, e1⟩ := block_index2 t
  refine funext fun (y : S4000x64.Idx) => ?_
  obtain ⟨p, q, rfl⟩ : ∃ (p : Fin 4000) (q : Fin 64), y = ix2 p q := ⟨y 0, y 1, eq_ix2 y⟩
  have hi : t.val * 4000 + p.val < 100000 := by
    have := t.isLt; have hN : cfg2.N = 25 := rfl; have := p.isLt; omega
  have hemb : ((cfg2.win 2).blk t).view.emb (ix2 p q) = (ix2 (⟨t.val * 4000 + p.val, hi⟩ : Fin 100000) q : S100000x64.Idx) := by
    funext a
    apply Fin.ext
    match a with
    | ⟨0, _⟩ => show win2_2.index t 0 * 4000 + 1 * p.val = t.val * 4000 + p.val; rw [e0]; omega
    | ⟨1, _⟩ => show win2_2.index t 1 * 64 + 1 * q.val = q.val; rw [e1]; omega
  rw [View.read_apply, hemb]
  refine (k2_pay1_apply _ _ p q).trans ((Finset.sum_congr rfl fun k _ => ?_).trans (mm_apply _ _ _ q).symm)
  rw [feature_block2 V c t (ix2 p k) (ix2 ⟨t.val * 4000 + p.val, hi⟩ k) rfl rfl, weight_block2 V c t (ix2 k q)]

/-- A row of the output array is in point t's block iff it lies in the block's range on each axis. -/
theorem mem_block2 (t : Fin cfg2.N) (i : S100000x64.Idx) :
    i ∈ ((cfg2.win 2).blk t).view.set
      ↔ ∀ a : Fin 2, win2_2.index t a * S4000x64.size a ≤ (i a).val ∧ (i a).val < win2_2.index t a * S4000x64.size a + S4000x64.size a := by
  show i ∈ ((View.whole main_v44).slice (win2_2.rect t)).set ↔ _
  rw [View.set_slice_whole, Rect.mem_set_unit]
  exact Iff.rfl

/-- Every row of the output is in the block of the point numbered by the row divided by 4000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := rfl
  refine ⟨⟨(i 0).val / 4000, by rw [hN]; omega⟩, flush2_2 _, ?_⟩
  rw [mem_block2]
  obtain ⟨-, -, -, -, e0, e1⟩ := block_index2 ⟨(i 0).val / 4000, by rw [hN]; omega⟩
  intro a
  match a with
  | ⟨0, _⟩ =>
    show win2_2.index _ 0 * 4000 ≤ (i 0).val ∧ (i 0).val < win2_2.index _ 0 * 4000 + 4000
    rw [e0]; show (i 0).val / 4000 * 4000 ≤ (i 0).val ∧ (i 0).val < (i 0).val / 4000 * 4000 + 4000; omega
  | ⟨1, _⟩ =>
    show win2_2.index _ 1 * 64 ≤ (i 1).val ∧ (i 1).val < win2_2.index _ 1 * 64 + 64
    rw [e1]; omega

/-- Launch 2 leaves the whole product of the features with the weights in its output array. -/
theorem proj2 : Proj2 := fun V c =>
  (dat2 (F := Ideal) V c).arrAt_eq_of_cover 2 (Cert.Net.mm (V c main_v43) (V c main_arg4))
    (fun t _ => flushed2 V c t) cover2

/-! ## Launch 4 -/

/-- Launch 4's payload, at (r, q): the same sum (the recast to the same shape changes nothing). -/
theorem k4_pay1_apply (x : Vec Ideal S4000x64 .f32) (w : Vec Ideal S64x64 .f32) (r : Fin 4000) (q : Fin 64) :
    k4_pay1 (F := Ideal) x w (ix2 r q) = ∑ k : Fin 64, x (ix2 r k) * w (ix2 k q) := by
  unfold k4_pay1
  rw [dims_block64, shapeCast_self]
  exact matmul_plain_zero_apply 4000 64 64 none _ _ r q

/-- The block indices of launch 4's windows: the features and the output move down the rows with the grid point,
    the weights stay. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The features' block at point t is rows 4000·t … 4000·t + 3999 of the array. -/
theorem feature_block4 (V : Entry) (c : Dev nD) (t : Fin cfg4.N) (y : S4000x64.Idx) (i : S100000x64.Idx)
    (h0 : (i 0).val = t.val * 4000 + (y 0).val) (h1 : (i 1).val = (y 1).val) :
    (iblk4 (F := Ideal) V c 0 t : Vec Ideal S4000x64 .f32) y = (V c main_v58 : S100000x64.Idx → EReal) i := by
  obtain ⟨e0, e1, -⟩ := block_index4 t
  unfold iblk4
  rw [View.read_apply]
  show V c main_v58 _ = V c main_v58 _
  congr 1
  funext a
  apply Fin.ext
  match a with
  | ⟨0, _⟩ => show win4_0.index t 0 * 4000 + 1 * (y 0).val = (i 0).val; rw [e0, h0]; omega
  | ⟨1, _⟩ => show win4_0.index t 1 * 64 + 1 * (y 1).val = (i 1).val; rw [e1, h1]; omega

/-- The weights' block at every point is the whole matrix. -/
theorem weight_block4 (V : Entry) (c : Dev nD) (t : Fin cfg4.N) (y : S64x64.Idx) :
    (iblk4 (F := Ideal) V c 1 t : Vec Ideal S64x64 .f32) y = (V c main_arg6 : S64x64.Idx → EReal) y := by
  obtain ⟨-, -, e0, e1, -⟩ := block_index4 t
  unfold iblk4
  rw [View.read_apply]
  show V c main_arg6 _ = V c main_arg6 _
  congr 1
  funext a
  apply Fin.ext
  match a with
  | ⟨0, _⟩ => show win4_1.index t 0 * 64 + 1 * (y 0).val = (y 0).val; rw [e0]; omega
  | ⟨1, _⟩ => show win4_1.index t 1 * 64 + 1 * (y 1).val = (y 1).val; rw [e1]; omega

/-- What point t writes back is block t of the whole product. -/
theorem flushed4 (V : Entry) (c : Dev nD) (t : Fin cfg4.N) :
    (dat4 (F := Ideal) V c).flushed 2 t
      = ((cfg4.win 2).blk t).view.read (Elt Ideal) (Cert.Net.mm (V c main_v58) (V c main_arg6)) := by
  show (cfg4.win 2).cut (grid4.coords t) ((dat4 (F := Ideal) V c).after 2 t) = _
  rw [after4_2]
  unfold out4_2
  rw [View.canon_unit_zero zero_offsets]
  simp only [View.ld_unit_zero (S := S4000x64) zero_offsets, View.ld_unit_zero (S := S64x64) zero_offsets]
  obtain ⟨-, -, -, -, e0, e1⟩ := block_index4 t
  refine funext fun (y : S4000x64.Idx) => ?_
  obtain ⟨p, q, rfl⟩ : ∃ (p : Fin 4000) (q : Fin 64), y = ix2 p q := ⟨y 0, y 1, eq_ix2 y⟩
  have hi : t.val * 4000 + p.val < 100000 := by
    have := t.isLt; have hN : cfg4.N = 25 := rfl; have := p.isLt; omega
  have hemb : ((cfg4.win 2).blk t).view.emb (ix2 p q) = (ix2 (⟨t.val * 4000 + p.val, hi⟩ : Fin 100000) q : S100000x64.Idx) := by
    funext a
    apply Fin.ext
    match a with
    | ⟨0, _⟩ => show win4_2.index t 0 * 4000 + 1 * p.val = t.val * 4000 + p.val; rw [e0]; omega
    | ⟨1, _⟩ => show win4_2.index t 1 * 64 + 1 * q.val = q.val; rw [e1]; omega
  rw [View.read_apply, hemb]
  refine (k4_pay1_apply _ _ p q).trans ((Finset.sum_congr rfl fun k _ => ?_).trans (mm_apply _ _ _ q).symm)
  rw [feature_block4 V c t (ix2 p k) (ix2 ⟨t.val * 4000 + p.val, hi⟩ k) rfl rfl, weight_block4 V c t (ix2 k q)]

/-- A row of the output array is in point t's block iff it lies in the block's range on each axis. -/
theorem mem_block4 (t : Fin cfg4.N) (i : S100000x64.Idx) :
    i ∈ ((cfg4.win 2).blk t).view.set
      ↔ ∀ a : Fin 2, win4_2.index t a * S4000x64.size a ≤ (i a).val ∧ (i a).val < win4_2.index t a * S4000x64.size a + S4000x64.size a := by
  show i ∈ ((View.whole main_v59).slice (win4_2.rect t)).set ↔ _
  rw [View.set_slice_whole, Rect.mem_set_unit]
  exact Iff.rfl

/-- Every row of the output is in the block of the point numbered by the row divided by 4000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 25 := rfl
  refine ⟨⟨(i 0).val / 4000, by rw [hN]; omega⟩, flush4_2 _, ?_⟩
  rw [mem_block4]
  obtain ⟨-, -, -, -, e0, e1⟩ := block_index4 ⟨(i 0).val / 4000, by rw [hN]; omega⟩
  intro a
  match a with
  | ⟨0, _⟩ =>
    show win4_2.index _ 0 * 4000 ≤ (i 0).val ∧ (i 0).val < win4_2.index _ 0 * 4000 + 4000
    rw [e0]; show (i 0).val / 4000 * 4000 ≤ (i 0).val ∧ (i 0).val < (i 0).val / 4000 * 4000 + 4000; omega
  | ⟨1, _⟩ =>
    show win4_2.index _ 1 * 64 ≤ (i 1).val ∧ (i 1).val < win4_2.index _ 1 * 64 + 64
    rw [e1]; omega

/-- Launch 4 leaves the whole product of the features with the weights in its output array. -/
theorem proj4 : Proj4 := fun V c =>
  (dat4 (F := Ideal) V c).arrAt_eq_of_cover 2 (Cert.Net.mm (V c main_v58) (V c main_arg6))
    (fun t _ => flushed4 V c t) cover4

/-! ## Launch 6 -/

/-- Launch 6's payload, at (r, q): the same sum (the recast to the same shape changes nothing). -/
theorem k6_pay1_apply (x : Vec Ideal S4000x64 .f32) (w : Vec Ideal S64x64 .f32) (r : Fin 4000) (q : Fin 64) :
    k6_pay1 (F := Ideal) x w (ix2 r q) = ∑ k : Fin 64, x (ix2 r k) * w (ix2 k q) := by
  unfold k6_pay1
  rw [dims_block64, shapeCast_self]
  exact matmul_plain_zero_apply 4000 64 64 none _ _ r q

/-- The block indices of launch 6's windows: the features and the output move down the rows with the grid point,
    the weights stay. -/
theorem block_index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The features' block at point t is rows 4000·t … 4000·t + 3999 of the array. -/
theorem feature_block6 (V : Entry) (c : Dev nD) (t : Fin cfg6.N) (y : S4000x64.Idx) (i : S100000x64.Idx)
    (h0 : (i 0).val = t.val * 4000 + (y 0).val) (h1 : (i 1).val = (y 1).val) :
    (iblk6 (F := Ideal) V c 0 t : Vec Ideal S4000x64 .f32) y = (V c main_v73 : S100000x64.Idx → EReal) i := by
  obtain ⟨e0, e1, -⟩ := block_index6 t
  unfold iblk6
  rw [View.read_apply]
  show V c main_v73 _ = V c main_v73 _
  congr 1
  funext a
  apply Fin.ext
  match a with
  | ⟨0, _⟩ => show win6_0.index t 0 * 4000 + 1 * (y 0).val = (i 0).val; rw [e0, h0]; omega
  | ⟨1, _⟩ => show win6_0.index t 1 * 64 + 1 * (y 1).val = (i 1).val; rw [e1, h1]; omega

/-- The weights' block at every point is the whole matrix. -/
theorem weight_block6 (V : Entry) (c : Dev nD) (t : Fin cfg6.N) (y : S64x64.Idx) :
    (iblk6 (F := Ideal) V c 1 t : Vec Ideal S64x64 .f32) y = (V c main_arg8 : S64x64.Idx → EReal) y := by
  obtain ⟨-, -, e0, e1, -⟩ := block_index6 t
  unfold iblk6
  rw [View.read_apply]
  show V c main_arg8 _ = V c main_arg8 _
  congr 1
  funext a
  apply Fin.ext
  match a with
  | ⟨0, _⟩ => show win6_1.index t 0 * 64 + 1 * (y 0).val = (y 0).val; rw [e0]; omega
  | ⟨1, _⟩ => show win6_1.index t 1 * 64 + 1 * (y 1).val = (y 1).val; rw [e1]; omega

/-- What point t writes back is block t of the whole product. -/
theorem flushed6 (V : Entry) (c : Dev nD) (t : Fin cfg6.N) :
    (dat6 (F := Ideal) V c).flushed 2 t
      = ((cfg6.win 2).blk t).view.read (Elt Ideal) (Cert.Net.mm (V c main_v73) (V c main_arg8)) := by
  show (cfg6.win 2).cut (grid6.coords t) ((dat6 (F := Ideal) V c).after 2 t) = _
  rw [after6_2]
  unfold out6_2
  rw [View.canon_unit_zero zero_offsets]
  simp only [View.ld_unit_zero (S := S4000x64) zero_offsets, View.ld_unit_zero (S := S64x64) zero_offsets]
  obtain ⟨-, -, -, -, e0, e1⟩ := block_index6 t
  refine funext fun (y : S4000x64.Idx) => ?_
  obtain ⟨p, q, rfl⟩ : ∃ (p : Fin 4000) (q : Fin 64), y = ix2 p q := ⟨y 0, y 1, eq_ix2 y⟩
  have hi : t.val * 4000 + p.val < 100000 := by
    have := t.isLt; have hN : cfg6.N = 25 := rfl; have := p.isLt; omega
  have hemb : ((cfg6.win 2).blk t).view.emb (ix2 p q) = (ix2 (⟨t.val * 4000 + p.val, hi⟩ : Fin 100000) q : S100000x64.Idx) := by
    funext a
    apply Fin.ext
    match a with
    | ⟨0, _⟩ => show win6_2.index t 0 * 4000 + 1 * p.val = t.val * 4000 + p.val; rw [e0]; omega
    | ⟨1, _⟩ => show win6_2.index t 1 * 64 + 1 * q.val = q.val; rw [e1]; omega
  rw [View.read_apply, hemb]
  refine (k6_pay1_apply _ _ p q).trans ((Finset.sum_congr rfl fun k _ => ?_).trans (mm_apply _ _ _ q).symm)
  rw [feature_block6 V c t (ix2 p k) (ix2 ⟨t.val * 4000 + p.val, hi⟩ k) rfl rfl, weight_block6 V c t (ix2 k q)]

/-- A row of the output array is in point t's block iff it lies in the block's range on each axis. -/
theorem mem_block6 (t : Fin cfg6.N) (i : S100000x64.Idx) :
    i ∈ ((cfg6.win 2).blk t).view.set
      ↔ ∀ a : Fin 2, win6_2.index t a * S4000x64.size a ≤ (i a).val ∧ (i a).val < win6_2.index t a * S4000x64.size a + S4000x64.size a := by
  show i ∈ ((View.whole main_v74).slice (win6_2.rect t)).set ↔ _
  rw [View.set_slice_whole, Rect.mem_set_unit]
  exact Iff.rfl

/-- Every row of the output is in the block of the point numbered by the row divided by 4000. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 25 := rfl
  refine ⟨⟨(i 0).val / 4000, by rw [hN]; omega⟩, flush6_2 _, ?_⟩
  rw [mem_block6]
  obtain ⟨-, -, -, -, e0, e1⟩ := block_index6 ⟨(i 0).val / 4000, by rw [hN]; omega⟩
  intro a
  match a with
  | ⟨0, _⟩ =>
    show win6_2.index _ 0 * 4000 ≤ (i 0).val ∧ (i 0).val < win6_2.index _ 0 * 4000 + 4000
    rw [e0]; show (i 0).val / 4000 * 4000 ≤ (i 0).val ∧ (i 0).val < (i 0).val / 4000 * 4000 + 4000; omega
  | ⟨1, _⟩ =>
    show win6_2.index _ 1 * 64 ≤ (i 1).val ∧ (i 1).val < win6_2.index _ 1 * 64 + 64
    rw [e1]; omega

/-- Launch 6 leaves the whole product of the features with the weights in its output array. -/
theorem proj6 : Proj6 := fun V c =>
  (dat6 (F := Ideal) V c).arrAt_eq_of_cover 2 (Cert.Net.mm (V c main_v73) (V c main_arg8))
    (fun t _ => flushed6 V c t) cover6

/-! ## The last launch -/

/-- The dimension numbers of the last block product are the plain ones. -/
theorem dims_block16 : dot_S4000x64_S64x16_S4000x16_1_0_0_1_n_n = DotDims.plain 4000 64 16 := rfl

/-- The last launch's payload, at (r, q): the sum over the inner coordinate plus the bias row's entry q. -/
theorem k8_pay1_apply (x : Vec Ideal S4000x64 .f32) (w : Vec Ideal S64x16 .f32) (b : Vec Ideal S1x16 .f32)
    (r : Fin 4000) (q : Fin 16) :
    k8_pay1 (F := Ideal) x w b (ix2 r q) = (∑ k : Fin 64, x (ix2 r k) * w (ix2 k q)) + b (ix2 (0 : Fin 1) q) := by
  unfold k8_pay1
  rw [dims_block16, shapeCast_self, shapeCast_self, addf_apply]
  exact congrArg₂ (· + ·) (matmul_plain_zero_apply 4000 64 16 none _ _ r q)
    (Cert.LibRowColumn.spread_row_apply b _ r q)

/-- The whole last layer at (i, q): the sum over the inner coordinate plus the bias row's entry q. -/
theorem head_apply (x : S100000x64.Idx → EReal) (w : S64x16.Idx → EReal) (b : S1x16.Idx → EReal)
    (i : Fin 100000) (q : Fin 16) :
    Cert.Net.head (F := Ideal) x w b (ix2 i q) = (∑ k : Fin 64, x (ix2 i k) * w (ix2 k q)) + b (ix2 (0 : Fin 1) q) := by
  unfold Cert.Net.head
  rw [addf_apply]
  exact congrArg₂ (· + ·) (dotGeneral_plain_apply 100000 64 16 none .single x w i q)
    (Cert.LibRowColumn.host_row_apply b _ i q)

/-- The block indices of the last launch's windows: the features and the output move down the rows with the grid
    point, the weights and the bias row stay. -/
theorem block_index8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The features' block at point t is rows 4000·t … 4000·t + 3999 of the array. -/
theorem feature_block8 (V : Entry) (c : Dev nD) (t : Fin cfg8.N) (y : S4000x64.Idx) (i : S100000x64.Idx)
    (h0 : (i 0).val = t.val * 4000 + (y 0).val) (h1 : (i 1).val = (y 1).val) :
    (iblk8 (F := Ideal) V c 0 t : Vec Ideal S4000x64 .f32) y = (V c main_v88 : S100000x64.Idx → EReal) i := by
  obtain ⟨e0, e1, -⟩ := block_index8 t
  unfold iblk8
  rw [View.read_apply]
  show V c main_v88 _ = V c main_v88 _
  congr 1
  funext a
  apply Fin.ext
  match a with
  | ⟨0, _⟩ => show win8_0.index t 0 * 4000 + 1 * (y 0).val = (i 0).val; rw [e0, h0]; omega
  | ⟨1, _⟩ => show win8_0.index t 1 * 64 + 1 * (y 1).val = (i 1).val; rw [e1, h1]; omega

/-- The weights' block at every point is the whole matrix. -/
theorem weight_block8 (V : Entry) (c : Dev nD) (t : Fin cfg8.N) (y : S64x16.Idx) :
    (iblk8 (F := Ideal) V c 1 t : Vec Ideal S64x16 .f32) y = (V c main_arg10 : S64x16.Idx → EReal) y := by
  obtain ⟨-, -, e0, e1, -⟩ := block_index8 t
  unfold iblk8
  rw [View.read_apply]
  show V c main_arg10 _ = V c main_arg10 _
  congr 1
  funext a
  apply Fin.ext
  match a with
  | ⟨0, _⟩ => show win8_1.index t 0 * 64 + 1 * (y 0).val = (y 0).val; rw [e0]; omega
  | ⟨1, _⟩ => show win8_1.index t 1 * 16 + 1 * (y 1).val = (y 1).val; rw [e1]; omega

/-- The bias row's block at every point is the whole row. -/
theorem bias_block8 (V : Entry) (c : Dev nD) (t : Fin cfg8.N) (y : S1x16.Idx) :
    (iblk8 (F := Ideal) V c 2 t : Vec Ideal S1x16 .f32) y = (V c main_v89 : S1x16.Idx → EReal) y := by
  obtain ⟨-, -, -, -, e0, e1, -⟩ := block_index8 t
  unfold iblk8
  rw [View.read_apply]
  show V c main_v89 _ = V c main_v89 _
  congr 1
  funext a
  apply Fin.ext
  match a with
  | ⟨0, _⟩ => show win8_2.index t 0 * 1 + 1 * (y 0).val = (y 0).val; rw [e0]; omega
  | ⟨1, _⟩ => show win8_2.index t 1 * 16 + 1 * (y 1).val = (y 1).val; rw [e1]; omega

/-- What point t writes back is block t of the whole last layer. -/
theorem flushed8 (V : Entry) (c : Dev nD) (t : Fin cfg8.N) :
    (dat8 (F := Ideal) V c).flushed 3 t
      = ((cfg8.win 3).blk t).view.read (Elt Ideal) (Cert.Net.head (V c main_v88) (V c main_arg10) (V c main_v89)) := by
  show (cfg8.win 3).cut (grid8.coords t) ((dat8 (F := Ideal) V c).after 3 t) = _
  rw [after8_3]
  unfold out8_3
  rw [View.canon_unit_zero zero_offsets]
  simp only [View.ld_unit_zero (S := S4000x64) zero_offsets, View.ld_unit_zero (S := S64x16) zero_offsets,
    View.ld_unit_zero (S := S1x16) zero_offsets]
  obtain ⟨-, -, -, -, -, -, e0, e1⟩ := block_index8 t
  refine funext fun (y : S4000x16.Idx) => ?_
  obtain ⟨p, q, rfl⟩ : ∃ (p : Fin 4000) (q : Fin 16), y = ix2 p q := ⟨y 0, y 1, eq_ix2 y⟩
  have hi : t.val * 4000 + p.val < 100000 := by
    have := t.isLt; have hN : cfg8.N = 25 := rfl; have := p.isLt; omega
  have hemb : ((cfg8.win 3).blk t).view.emb (ix2 p q) = (ix2 (⟨t.val * 4000 + p.val, hi⟩ : Fin 100000) q : S100000x16.Idx) := by
    funext a
    apply Fin.ext
    match a with
    | ⟨0, _⟩ => show win8_3.index t 0 * 4000 + 1 * p.val = t.val * 4000 + p.val; rw [e0]; omega
    | ⟨1, _⟩ => show win8_3.index t 1 * 16 + 1 * q.val = q.val; rw [e1]; omega
  rw [View.read_apply, hemb]
  refine (k8_pay1_apply _ _ _ p q).trans (Eq.trans ?_ (head_apply _ _ _ _ q).symm)
  rw [bias_block8 V c t (ix2 (0 : Fin 1) q)]
  refine congrArg (· + _) (Finset.sum_congr rfl fun k _ => ?_)
  rw [feature_block8 V c t (ix2 p k) (ix2 ⟨t.val * 4000 + p.val, hi⟩ k) rfl rfl, weight_block8 V c t (ix2 k q)]

/-- A row of the output array is in point t's block iff it lies in the block's range on each axis. -/
theorem mem_block8 (t : Fin cfg8.N) (i : S100000x16.Idx) :
    i ∈ ((cfg8.win 3).blk t).view.set
      ↔ ∀ a : Fin 2, win8_3.index t a * S4000x16.size a ≤ (i a).val ∧ (i a).val < win8_3.index t a * S4000x16.size a + S4000x16.size a := by
  show i ∈ ((View.whole main_v90).slice (win8_3.rect t)).set ↔ _
  rw [View.set_slice_whole, Rect.mem_set_unit]
  exact Iff.rfl

/-- Every row of the output is in the block of the point numbered by the row divided by 4000. -/
theorem cover8 (i : S100000x16.Idx) :
    ∃ t : Fin cfg8.N, (cfg8.win 3).flush t = true ∧ i ∈ ((cfg8.win 3).blk t).view.set := by
  have hi0 : (i 0).val < 100000 := (i 0).isLt
  have hi1 : (i 1).val < 16 := (i 1).isLt
  have hN : cfg8.N = 25 := rfl
  refine ⟨⟨(i 0).val / 4000, by rw [hN]; omega⟩, flush8_3 _, ?_⟩
  rw [mem_block8]
  obtain ⟨-, -, -, -, -, -, e0, e1⟩ := block_index8 ⟨(i 0).val / 4000, by rw [hN]; omega⟩
  intro a
  match a with
  | ⟨0, _⟩ =>
    show win8_3.index _ 0 * 4000 ≤ (i 0).val ∧ (i 0).val < win8_3.index _ 0 * 4000 + 4000
    rw [e0]; show (i 0).val / 4000 * 4000 ≤ (i 0).val ∧ (i 0).val < (i 0).val / 4000 * 4000 + 4000; omega
  | ⟨1, _⟩ =>
    show win8_3.index _ 1 * 16 ≤ (i 1).val ∧ (i 1).val < win8_3.index _ 1 * 16 + 16
    rw [e1]; omega

/-- The last launch leaves the features times the head's weights plus its bias row in its output array. -/
theorem head8 : Head8 := fun V c =>
  (dat8 (F := Ideal) V c).arrAt_eq_of_cover 3 (Cert.Net.head (V c main_v88) (V c main_arg10) (V c main_v89))
    (fun t _ => flushed8 V c t) cover8

end Cert.KernelIdeal.Launches

end
-- ==== Proof.LaunchEnd.lean ====
/-
  The four layer-end launches: what each leaves in its output array.

  A layer-end launch works on blocks of 4000 consecutive rows. At grid point t it writes, into rows
  4000·t … 4000·t + 3999 of its output, the value tanh((a + h · d) + b) taken entry by entry, where a and h are the
  same rows of the arrivals and of the projected features, d is the same rows of the self-loop column spread across
  the 64 columns, and b is the bias row spread down the rows. The 25 blocks are disjoint and fill the 100000 rows,
  so the output array ends as the whole-array function tanh((a + h · spread(d)) + spread(b)) of the four arrays read.

  The proof has three parts. First the block's payload and the whole-array function are read at an index: both are
  the same tree of pointwise operations of the entries of a, h, d (at column 0 of the row) and b (at row 0 of the
  column). Then entry (p, q) of block t of each row-blocked input is entry (4000·t + p, q) of its array, and the
  bias row's only block is the row itself, so what point t writes back is block t of the whole-array function.
  Last, row i lies in the block of point i / 4000, so the blocks cover the array.
-/
import proofs.«176425_j29858612642432_1_alg».proof.Proof.Launches
import proofs.«176425_j29858612642432_1_alg».proof.Proof.LibRowColumn

noncomputable section

namespace Cert.KernelIdeal.Launches

open Idealize.ShloMosaic Idealize.ShloMosaic.TcCoe Idealize.SL.Sem Cert.KernelIdeal Cert.KernelIdeal.Gen
open Idealize.ShloMosaic.ValueIdx

/-- The zero offsets of a whole-block rectangle, however spelt. -/
theorem origin_offsets : (![0, 0] : Fin 2 → Nat) = fun _ => 0 := funext fun a => by fin_cases a <;> rfl

/-- The whole-array function at an index: tanh((a + h · d at column 0 of the row) + b at row 0 of the column). -/
theorem fin_apply (a h : (⟨S100000x64, .f32⟩ : BufTy).Contents (Elt Ideal)) (dcol : (⟨S100000x1, .f32⟩ : BufTy).Contents (Elt Ideal))
    (brow : (⟨S1x64, .f32⟩ : BufTy).Contents (Elt Ideal)) (i : Fin 100000) (q : Fin 64) :
    Cert.Net.fin (F := Ideal) a h dcol brow (ix2 i q)
      = Ideal.tanh ((a (ix2 i q) + h (ix2 i q) * dcol (ix2 i (0 : Fin 1))) + brow (ix2 (0 : Fin 1) q)) := by
  unfold Cert.Net.fin
  show Ideal.tanh ((a (ix2 i q) + h (ix2 i q) * broadcastInDim _ ![0, 1] _ dcol (ix2 i q)) + broadcastInDim _ ![0, 1] _ brow (ix2 i q)) = _
  rw [Cert.LibRowColumn.host_col_apply, Cert.LibRowColumn.host_row_apply]

/-- The block's payload at an index: the same tree of operations of the blocks' entries. -/
theorem pay1_apply (x0 x1 : Vec Ideal S4000x64 .f32) (x2 : Vec Ideal S4000x1 .f32) (x3 : Vec Ideal S1x64 .f32)
    (p : Fin 4000) (q : Fin 64) :
    k1_pay1 (F := Ideal) x0 x1 x2 x3 (ix2 p q)
      = Ideal.tanh ((x0 (ix2 p q) + x1 (ix2 p q) * x2 (ix2 p (0 : Fin 1))) + x3 (ix2 (0 : Fin 1) q)) := by
  unfold k1_pay1
  simp only [shapeCast_self]
  show Ideal.tanh ((x0 (ix2 p q) + x1 (ix2 p q) * broadcastTo _ x2 _ (ix2 p q)) + broadcastTo _ x3 _ (ix2 p q)) = _
  rw [Cert.LibRowColumn.spread_col_apply, Cert.LibRowColumn.spread_row_apply]

/-- At a block index (p, q) whose entries of the four blocks are the arrays' entries at row i — column q of a and h,
    column 0 of d, and entry q of the bias row — the payload is the whole-array function at (i, q). -/
theorem pay1_eq_fin (x0 x1 : Vec Ideal S4000x64 .f32) (x2 : Vec Ideal S4000x1 .f32) (x3 : Vec Ideal S1x64 .f32)
    (a h : (⟨S100000x64, .f32⟩ : BufTy).Contents (Elt Ideal)) (d : (⟨S100000x1, .f32⟩ : BufTy).Contents (Elt Ideal))
    (b : (⟨S1x64, .f32⟩ : BufTy).Contents (Elt Ideal))
    (j : S4000x64.Idx) (k : S100000x64.Idx) (p : Fin 4000) (q : Fin 64) (i : Fin 100000)
    (hj : j = ix2 p q) (hk : k = ix2 i q)
    (h0 : x0 (ix2 p q) = a (ix2 i q)) (h1 : x1 (ix2 p q) = h (ix2 i q))
    (h2 : x2 (ix2 p (0 : Fin 1)) = d (ix2 i (0 : Fin 1))) (h3 : x3 (ix2 (0 : Fin 1) q) = b (ix2 (0 : Fin 1) q)) :
    k1_pay1 (F := Ideal) x0 x1 x2 x3 j = Cert.Net.fin (F := Ideal) a h d b k := by
  subst hj hk
  rw [pay1_apply, fin_apply, h0, h1, h2, h3]

/-- Launch 3's payload is the same function of its blocks. -/
theorem pay3_eq_fin (x0 x1 : Vec Ideal S4000x64 .f32) (x2 : Vec Ideal S4000x1 .f32) (x3 : Vec Ideal S1x64 .f32)
    (a h : (⟨S100000x64, .f32⟩ : BufTy).Contents (Elt Ideal)) (d : (⟨S100000x1, .f32⟩ : BufTy).Contents (Elt Ideal))
    (b : (⟨S1x64, .f32⟩ : BufTy).Contents (Elt Ideal))
    (j : S4000x64.Idx) (k : S100000x64.Idx) (p : Fin 4000) (q : Fin 64) (i : Fin 100000)
    (hj : j = ix2 p q) (hk : k = ix2 i q)
    (h0 : x0 (ix2 p q) = a (ix2 i q)) (h1 : x1 (ix2 p q) = h (ix2 i q))
    (h2 : x2 (ix2 p (0 : Fin 1)) = d (ix2 i (0 : Fin 1))) (h3 : x3 (ix2 (0 : Fin 1) q) = b (ix2 (0 : Fin 1) q)) :
    k3_pay1 (F := Ideal) x0 x1 x2 x3 j = Cert.Net.fin (F := Ideal) a h d b k :=
  pay1_eq_fin x0 x1 x2 x3 a h d b j k p q i hj hk h0 h1 h2 h3

/-- Launch 5's payload is the same function of its blocks. -/
theorem pay5_eq_fin (x0 x1 : Vec Ideal S4000x64 .f32) (x2 : Vec Ideal S4000x1 .f32) (x3 : Vec Ideal S1x64 .f32)
    (a h : (⟨S100000x64, .f32⟩ : BufTy).Contents (Elt Ideal)) (d : (⟨S100000x1, .f32⟩ : BufTy).Contents (Elt Ideal))
    (b : (⟨S1x64, .f32⟩ : BufTy).Contents (Elt Ideal))
    (j : S4000x64.Idx) (k : S100000x64.Idx) (p : Fin 4000) (q : Fin 64) (i : Fin 100000)
    (hj : j = ix2 p q) (hk : k = ix2 i q)
    (h0 : x0 (ix2 p q) = a (ix2 i q)) (h1 : x1 (ix2 p q) = h (ix2 i q))
    (h2 : x2 (ix2 p (0 : Fin 1)) = d (ix2 i (0 : Fin 1))) (h3 : x3 (ix2 (0 : Fin 1) q) = b (ix2 (0 : Fin 1) q)) :
    k5_pay1 (F := Ideal) x0 x1 x2 x3 j = Cert.Net.fin (F := Ideal) a h d b k :=
  pay1_eq_fin x0 x1 x2 x3 a h d b j k p q i hj hk h0 h1 h2 h3

/-- Launch 7's payload is the same function of its blocks. -/
theorem pay7_eq_fin (x0 x1 : Vec Ideal S4000x64 .f32) (x2 : Vec Ideal S4000x1 .f32) (x3 : Vec Ideal S1x64 .f32)
    (a h : (⟨S100000x64, .f32⟩ : BufTy).Contents (Elt Ideal)) (d : (⟨S100000x1, .f32⟩ : BufTy).Contents (Elt Ideal))
    (b : (⟨S1x64, .f32⟩ : BufTy).Contents (Elt Ideal))
    (j : S4000x64.Idx) (k : S100000x64.Idx) (p : Fin 4000) (q : Fin 64) (i : Fin 100000)
    (hj : j = ix2 p q) (hk : k = ix2 i q)
    (h0 : x0 (ix2 p q) = a (ix2 i q)) (h1 : x1 (ix2 p q) = h (ix2 i q))
    (h2 : x2 (ix2 p (0 : Fin 1)) = d (ix2 i (0 : Fin 1))) (h3 : x3 (ix2 (0 : Fin 1) q) = b (ix2 (0 : Fin 1) q)) :
    k7_pay1 (F := Ideal) x0 x1 x2 x3 j = Cert.Net.fin (F := Ideal) a h d b k :=
  pay1_eq_fin x0 x1 x2 x3 a h d b j k p q i hj hk h0 h1 h2 h3

/-! ## Launch 1 -/

/-- The launch's index maps, decided over its grid: the row-blocked windows move together, block row t
    at point t, in block column 0; the bias row's only block is block (0, 0). -/
theorem index1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every block row of the output is some point's. -/
theorem onto1 : ∀ r : Fin 25, ∃ t : Fin cfg1.N, win1_4.index t = ![r.val, 0] :=
  (by decide +kernel : ∀ r : Fin 25, ∃ t : Fin grid1.N, win1_4.index t = ![r.val, 0])

set_option maxHeartbeats 2000000 in
/-- What point t writes back is block t of the whole-array function. -/
theorem flushed1 (V : Entry) (c : Dev nD) (t : Fin cfg1.N) :
    (dat1 (F := Ideal) V c).flushed 4 t
      = ((cfg1.win 4).blk t).view.read (Elt Ideal) (Cert.Net.fin (V c main_v41) (V c main_v29) (V c main_v12) (V c main_v42)) := by
  show (cfg1.win 4).cut (grid1.coords t) ((dat1 V c).after 4 t) = _
  rw [after1_4]
  unfold out1_4
  rw [View.canon_unit_zero origin_offsets]
  simp only [View.ld_unit_zero (S := S4000x64) origin_offsets, View.ld_unit_zero (S := S4000x1) origin_offsets,
    View.ld_unit_zero (S := S1x64) origin_offsets]
  funext y
  have hp : (y 0).val < 4000 := (y 0).isLt
  have hq : (y 1).val < 64 := (y 1).isLt
  obtain ⟨e00, e01, e10, e11, e20, e21, e30, e31, e41, e40⟩ := index1 t
  have hi : win1_4.index t (0 : Fin 2) * 4000 + (y 0).val < 100000 := by omega
  refine pay1_eq_fin _ _ _ _ _ _ _ _ _ _ (⟨(y 0).val, hp⟩ : Fin 4000) (⟨(y 1).val, hq⟩ : Fin 64)
    (⟨win1_4.index t (0 : Fin 2) * 4000 + (y 0).val, hi⟩ : Fin 100000) ?_ ?_ ?_ ?_ ?_ ?_
  · funext a
    match a with
    | ⟨0, _⟩ => rfl
    | ⟨1, _⟩ => rfl
  · funext a; apply Fin.ext
    match a with
    | ⟨0, _⟩ => show win1_4.index t (0 : Fin 2) * 4000 + 1 * (y 0).val = win1_4.index t (0 : Fin 2) * 4000 + (y 0).val; omega
    | ⟨1, _⟩ => show win1_4.index t (1 : Fin 2) * 64 + 1 * (y 1).val = (y 1).val; omega
  · show V c main_v41 (((cfg1.win 0).blk t).view.emb (ix2 (⟨(y 0).val, hp⟩ : Fin 4000) (⟨(y 1).val, hq⟩ : Fin 64))) = _
    refine congrArg (V c main_v41) ?_
    funext a; apply Fin.ext
    match a with
    | ⟨0, _⟩ => show win1_0.index t (0 : Fin 2) * 4000 + 1 * (y 0).val = win1_4.index t (0 : Fin 2) * 4000 + (y 0).val; omega
    | ⟨1, _⟩ => show win1_0.index t (1 : Fin 2) * 64 + 1 * (y 1).val = (y 1).val; omega
  · show V c main_v29 (((cfg1.win 1).blk t).view.emb (ix2 (⟨(y 0).val, hp⟩ : Fin 4000) (⟨(y 1).val, hq⟩ : Fin 64))) = _
    refine congrArg (V c main_v29) ?_
    funext a; apply Fin.ext
    match a with
    | ⟨0, _⟩ => show win1_1.index t (0 : Fin 2) * 4000 + 1 * (y 0).val = win1_4.index t (0 : Fin 2) * 4000 + (y 0).val; omega
    | ⟨1, _⟩ => show win1_1.index t (1 : Fin 2) * 64 + 1 * (y 1).val = (y 1).val; omega
  · show V c main_v12 (((cfg1.win 2).blk t).view.emb (ix2 (⟨(y 0).val, hp⟩ : Fin 4000) (0 : Fin 1))) = _
    refine congrArg (V c main_v12) ?_
    funext a; apply Fin.ext
    match a with
    | ⟨0, _⟩ => show win1_2.index t (0 : Fin 2) * 4000 + 1 * (y 0).val = win1_4.index t (0 : Fin 2) * 4000 + (y 0).val; omega
    | ⟨1, _⟩ => show win1_2.index t (1 : Fin 2) * 1 + 1 * 0 = 0; omega
  · show V c main_v42 (((cfg1.win 3).blk t).view.emb (ix2 (0 : Fin 1) (⟨(y 1).val, hq⟩ : Fin 64))) = _
    refine congrArg (V c main_v42) ?_
    funext a; apply Fin.ext
    match a with
    | ⟨0, _⟩ => show win1_3.index t (0 : Fin 2) * 1 + 1 * 0 = 0; omega
    | ⟨1, _⟩ => show win1_3.index t (1 : Fin 2) * 64 + 1 * (y 1).val = (y 1).val; omega

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v43).slice (win1_4.rect t)).set ↔ _
  rw [View.set_slice_whole, Rect.mem_set_unit]
  exact Iff.rfl

/-- Every index of the output array is in the block of a point that writes back: row i in that of point i / 4000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- Launch 1 leaves in its output array the whole-array function of the four arrays it reads. -/
theorem end1 : End1 := fun V c =>
  (dat1 (F := Ideal) V c).arrAt_eq_of_cover 4 (Cert.Net.fin (V c main_v41) (V c main_v29) (V c main_v12) (V c main_v42))
    (fun t _ => flushed1 V c t) cover1

/-! ## Launch 3 -/

/-- The launch's index maps, decided over its grid: the row-blocked windows move together, block row t
    at point t, in block column 0; the bias row's only block is block (0, 0). -/
theorem index3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 24 :=
  (by decide +kernel : ∀ t : Fin grid3.N, _)

/-- Every block row of the output is some point's. -/
theorem onto3 : ∀ r : Fin 25, ∃ t : Fin cfg3.N, win3_4.index t = ![r.val, 0] :=
  (by decide +kernel : ∀ r : Fin 25, ∃ t : Fin grid3.N, win3_4.index t = ![r.val, 0])

set_option maxHeartbeats 2000000 in
/-- What point t writes back is block t of the whole-array function. -/
theorem flushed3 (V : Entry) (c : Dev nD) (t : Fin cfg3.N) :
    (dat3 (F := Ideal) V c).flushed 4 t
      = ((cfg3.win 4).blk t).view.read (Elt Ideal) (Cert.Net.fin (V c main_v56) (V c main_v44) (V c main_v12) (V c main_v57)) := by
  show (cfg3.win 4).cut (grid3.coords t) ((dat3 V c).after 4 t) = _
  rw [after3_4]
  unfold out3_4
  rw [View.canon_unit_zero origin_offsets]
  simp only [View.ld_unit_zero (S := S4000x64) origin_offsets, View.ld_unit_zero (S := S4000x1) origin_offsets,
    View.ld_unit_zero (S := S1x64) origin_offsets]
  funext y
  have hp : (y 0).val < 4000 := (y 0).isLt
  have hq : (y 1).val < 64 := (y 1).isLt
  obtain ⟨e00, e01, e10, e11, e20, e21, e30, e31, e41, e40⟩ := index3 t
  have hi : win3_4.index t (0 : Fin 2) * 4000 + (y 0).val < 100000 := by omega
  refine pay3_eq_fin _ _ _ _ _ _ _ _ _ _ (⟨(y 0).val, hp⟩ : Fin 4000) (⟨(y 1).val, hq⟩ : Fin 64)
    (⟨win3_4.index t (0 : Fin 2) * 4000 + (y 0).val, hi⟩ : Fin 100000) ?_ ?_ ?_ ?_ ?_ ?_
  · funext a
    match a with
    | ⟨0, _⟩ => rfl
    | ⟨1, _⟩ => rfl
  · funext a; apply Fin.ext
    match a with
    | ⟨0, _⟩ => show win3_4.index t (0 : Fin 2) * 4000 + 1 * (y 0).val = win3_4.index t (0 : Fin 2) * 4000 + (y 0).val; omega
    | ⟨1, _⟩ => show win3_4.index t (1 : Fin 2) * 64 + 1 * (y 1).val = (y 1).val; omega
  · show V c main_v56 (((cfg3.win 0).blk t).view.emb (ix2 (⟨(y 0).val, hp⟩ : Fin 4000) (⟨(y 1).val, hq⟩ : Fin 64))) = _
    refine congrArg (V c main_v56) ?_
    funext a; apply Fin.ext
    match a with
    | ⟨0, _⟩ => show win3_0.index t (0 : Fin 2) * 4000 + 1 * (y 0).val = win3_4.index t (0 : Fin 2) * 4000 + (y 0).val; omega
    | ⟨1, _⟩ => show win3_0.index t (1 : Fin 2) * 64 + 1 * (y 1).val = (y 1).val; omega
  · show V c main_v44 (((cfg3.win 1).blk t).view.emb (ix2 (⟨(y 0).val, hp⟩ : Fin 4000) (⟨(y 1).val, hq⟩ : Fin 64))) = _
    refine congrArg (V c main_v44) ?_
    funext a; apply Fin.ext
    match a with
    | ⟨0, _⟩ => show win3_1.index t (0 : Fin 2) * 4000 + 1 * (y 0).val = win3_4.index t (0 : Fin 2) * 4000 + (y 0).val; omega
    | ⟨1, _⟩ => show win3_1.index t (1 : Fin 2) * 64 + 1 * (y 1).val = (y 1).val; omega
  · show V c main_v12 (((cfg3.win 2).blk t).view.emb (ix2 (⟨(y 0).val, hp⟩ : Fin 4000) (0 : Fin 1))) = _
    refine congrArg (V c main_v12) ?_
    funext a; apply Fin.ext
    match a with
    | ⟨0, _⟩ => show win3_2.index t (0 : Fin 2) * 4000 + 1 * (y 0).val = win3_4.index t (0 : Fin 2) * 4000 + (y 0).val; omega
    | ⟨1, _⟩ => show win3_2.index t (1 : Fin 2) * 1 + 1 * 0 = 0; omega
  · show V c main_v57 (((cfg3.win 3).blk t).view.emb (ix2 (0 : Fin 1) (⟨(y 1).val, hq⟩ : Fin 64))) = _
    refine congrArg (V c main_v57) ?_
    funext a; apply Fin.ext
    match a with
    | ⟨0, _⟩ => show win3_3.index t (0 : Fin 2) * 1 + 1 * 0 = 0; omega
    | ⟨1, _⟩ => show win3_3.index t (1 : Fin 2) * 64 + 1 * (y 1).val = (y 1).val; omega

/-- An index of the output array is in point t's block iff each coordinate is in the block's range on its axis. -/
theorem mem_blk3 (t : Fin cfg3.N) (i : S100000x64.Idx) :
    i ∈ ((cfg3.win 4).blk t).view.set ↔ ∀ a : Fin 2, win3_4.index t a * S4000x64.size a ≤ (i a).val
      ∧ (i a).val < win3_4.index t a * S4000x64.size a + S4000x64.size a := by
  show i ∈ ((View.whole main_v58).slice (win3_4.rect t)).set ↔ _
  rw [View.set_slice_whole, Rect.mem_set_unit]
  exact Iff.rfl

/-- Every index of the output array is in the block of a point that writes back: row i in that of point i / 4000. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := onto3 ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 64 ≤ (i 1).val ∧ (i 1).val < win3_4.index t (1 : Fin 2) * 64 + 64; omega

/-- Launch 3 leaves in its output array the whole-array function of the four arrays it reads. -/
theorem end3 : End3 := fun V c =>
  (dat3 (F := Ideal) V c).arrAt_eq_of_cover 4 (Cert.Net.fin (V c main_v56) (V c main_v44) (V c main_v12) (V c main_v57))
    (fun t _ => flushed3 V c t) cover3

/-! ## Launch 5 -/

/-- The launch's index maps, decided over its grid: the row-blocked windows move together, block row t
    at point t, in block column 0; the bias row's only block is block (0, 0). -/
theorem index5 : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 24 :=
  (by decide +kernel : ∀ t : Fin grid5.N, _)

/-- Every block row of the output is some point's. -/
theorem onto5 : ∀ r : Fin 25, ∃ t : Fin cfg5.N, win5_4.index t = ![r.val, 0] :=
  (by decide +kernel : ∀ r : Fin 25, ∃ t : Fin grid5.N, win5_4.index t = ![r.val, 0])

set_option maxHeartbeats 2000000 in
/-- What point t writes back is block t of the whole-array function. -/
theorem flushed5 (V : Entry) (c : Dev nD) (t : Fin cfg5.N) :
    (dat5 (F := Ideal) V c).flushed 4 t
      = ((cfg5.win 4).blk t).view.read (Elt Ideal) (Cert.Net.fin (V c main_v71) (V c main_v59) (V c main_v12) (V c main_v72)) := by
  show (cfg5.win 4).cut (grid5.coords t) ((dat5 V c).after 4 t) = _
  rw [after5_4]
  unfold out5_4
  rw [View.canon_unit_zero origin_offsets]
  simp only [View.ld_unit_zero (S := S4000x64) origin_offsets, View.ld_unit_zero (S := S4000x1) origin_offsets,
    View.ld_unit_zero (S := S1x64) origin_offsets]
  funext y
  have hp : (y 0).val < 4000 := (y 0).isLt
  have hq : (y 1).val < 64 := (y 1).isLt
  obtain ⟨e00, e01, e10, e11, e20, e21, e30, e31, e41, e40⟩ := index5 t
  have hi : win5_4.index t (0 : Fin 2) * 4000 + (y 0).val < 100000 := by omega
  refine pay5_eq_fin _ _ _ _ _ _ _ _ _ _ (⟨(y 0).val, hp⟩ : Fin 4000) (⟨(y 1).val, hq⟩ : Fin 64)
    (⟨win5_4.index t (0 : Fin 2) * 4000 + (y 0).val, hi⟩ : Fin 100000) ?_ ?_ ?_ ?_ ?_ ?_
  · funext a
    match a with
    | ⟨0, _⟩ => rfl
    | ⟨1, _⟩ => rfl
  · funext a; apply Fin.ext
    match a with
    | ⟨0, _⟩ => show win5_4.index t (0 : Fin 2) * 4000 + 1 * (y 0).val = win5_4.index t (0 : Fin 2) * 4000 + (y 0).val; omega
    | ⟨1, _⟩ => show win5_4.index t (1 : Fin 2) * 64 + 1 * (y 1).val = (y 1).val; omega
  · show V c main_v71 (((cfg5.win 0).blk t).view.emb (ix2 (⟨(y 0).val, hp⟩ : Fin 4000) (⟨(y 1).val, hq⟩ : Fin 64))) = _
    refine congrArg (V c main_v71) ?_
    funext a; apply Fin.ext
    match a with
    | ⟨0, _⟩ => show win5_0.index t (0 : Fin 2) * 4000 + 1 * (y 0).val = win5_4.index t (0 : Fin 2) * 4000 + (y 0).val; omega
    | ⟨1, _⟩ => show win5_0.index t (1 : Fin 2) * 64 + 1 * (y 1).val = (y 1).val; omega
  · show V c main_v59 (((cfg5.win 1).blk t).view.emb (ix2 (⟨(y 0).val, hp⟩ : Fin 4000) (⟨(y 1).val, hq⟩ : Fin 64))) = _
    refine congrArg (V c main_v59) ?_
    funext a; apply Fin.ext
    match a with
    | ⟨0, _⟩ => show win5_1.index t (0 : Fin 2) * 4000 + 1 * (y 0).val = win5_4.index t (0 : Fin 2) * 4000 + (y 0).val; omega
    | ⟨1, _⟩ => show win5_1.index t (1 : Fin 2) * 64 + 1 * (y 1).val = (y 1).val; omega
  · show V c main_v12 (((cfg5.win 2).blk t).view.emb (ix2 (⟨(y 0).val, hp⟩ : Fin 4000) (0 : Fin 1))) = _
    refine congrArg (V c main_v12) ?_
    funext a; apply Fin.ext
    match a with
    | ⟨0, _⟩ => show win5_2.index t (0 : Fin 2) * 4000 + 1 * (y 0).val = win5_4.index t (0 : Fin 2) * 4000 + (y 0).val; omega
    | ⟨1, _⟩ => show win5_2.index t (1 : Fin 2) * 1 + 1 * 0 = 0; omega
  · show V c main_v72 (((cfg5.win 3).blk t).view.emb (ix2 (0 : Fin 1) (⟨(y 1).val, hq⟩ : Fin 64))) = _
    refine congrArg (V c main_v72) ?_
    funext a; apply Fin.ext
    match a with
    | ⟨0, _⟩ => show win5_3.index t (0 : Fin 2) * 1 + 1 * 0 = 0; omega
    | ⟨1, _⟩ => show win5_3.index t (1 : Fin 2) * 64 + 1 * (y 1).val = (y 1).val; omega

/-- An index of the output array is in point t's block iff each coordinate is in the block's range on its axis. -/
theorem mem_blk5 (t : Fin cfg5.N) (i : S100000x64.Idx) :
    i ∈ ((cfg5.win 4).blk t).view.set ↔ ∀ a : Fin 2, win5_4.index t a * S4000x64.size a ≤ (i a).val
      ∧ (i a).val < win5_4.index t a * S4000x64.size a + S4000x64.size a := by
  show i ∈ ((View.whole main_v73).slice (win5_4.rect t)).set ↔ _
  rw [View.set_slice_whole, Rect.mem_set_unit]
  exact Iff.rfl

/-- Every index of the output array is in the block of a point that writes back: row i in that of point i / 4000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := onto5 ⟨(i 0).val / 4000, by omega⟩
  have q0 : win5_4.index t (0 : Fin 2) = (i 0).val / 4000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 64 ≤ (i 1).val ∧ (i 1).val < win5_4.index t (1 : Fin 2) * 64 + 64; omega

/-- Launch 5 leaves in its output array the whole-array function of the four arrays it reads. -/
theorem end5 : End5 := fun V c =>
  (dat5 (F := Ideal) V c).arrAt_eq_of_cover 4 (Cert.Net.fin (V c main_v71) (V c main_v59) (V c main_v12) (V c main_v72))
    (fun t _ => flushed5 V c t) cover5

/-! ## Launch 7 -/

/-- The launch's index maps, decided over its grid: the row-blocked windows move together, block row t
    at point t, in block column 0; the bias row's only block is block (0, 0). -/
theorem index7 : ∀ t : Fin cfg7.N,
    win7_0.index t (0 : Fin 2) = win7_4.index t (0 : Fin 2) ∧ win7_0.index t (1 : Fin 2) = 0
    ∧ win7_1.index t (0 : Fin 2) = win7_4.index t (0 : Fin 2) ∧ win7_1.index t (1 : Fin 2) = 0
    ∧ win7_2.index t (0 : Fin 2) = win7_4.index t (0 : Fin 2) ∧ win7_2.index t (1 : Fin 2) = 0
    ∧ win7_3.index t (0 : Fin 2) = 0 ∧ win7_3.index t (1 : Fin 2) = 0
    ∧ win7_4.index t (1 : Fin 2) = 0 ∧ win7_4.index t (0 : Fin 2) ≤ 24 :=
  (by decide +kernel : ∀ t : Fin grid7.N, _)

/-- Every block row of the output is some point's. -/
theorem onto7 : ∀ r : Fin 25, ∃ t : Fin cfg7.N, win7_4.index t = ![r.val, 0] :=
  (by decide +kernel : ∀ r : Fin 25, ∃ t : Fin grid7.N, win7_4.index t = ![r.val, 0])

set_option maxHeartbeats 2000000 in
/-- What point t writes back is block t of the whole-array function. -/
theorem flushed7 (V : Entry) (c : Dev nD) (t : Fin cfg7.N) :
    (dat7 (F := Ideal) V c).flushed 4 t
      = ((cfg7.win 4).blk t).view.read (Elt Ideal) (Cert.Net.fin (V c main_v86) (V c main_v74) (V c main_v12) (V c main_v87)) := by
  show (cfg7.win 4).cut (grid7.coords t) ((dat7 V c).after 4 t) = _
  rw [after7_4]
  unfold out7_4
  rw [View.canon_unit_zero origin_offsets]
  simp only [View.ld_unit_zero (S := S4000x64) origin_offsets, View.ld_unit_zero (S := S4000x1) origin_offsets,
    View.ld_unit_zero (S := S1x64) origin_offsets]
  funext y
  have hp : (y 0).val < 4000 := (y 0).isLt
  have hq : (y 1).val < 64 := (y 1).isLt
  obtain ⟨e00, e01, e10, e11, e20, e21, e30, e31, e41, e40⟩ := index7 t
  have hi : win7_4.index t (0 : Fin 2) * 4000 + (y 0).val < 100000 := by omega
  refine pay7_eq_fin _ _ _ _ _ _ _ _ _ _ (⟨(y 0).val, hp⟩ : Fin 4000) (⟨(y 1).val, hq⟩ : Fin 64)
    (⟨win7_4.index t (0 : Fin 2) * 4000 + (y 0).val, hi⟩ : Fin 100000) ?_ ?_ ?_ ?_ ?_ ?_
  · funext a
    match a with
    | ⟨0, _⟩ => rfl
    | ⟨1, _⟩ => rfl
  · funext a; apply Fin.ext
    match a with
    | ⟨0, _⟩ => show win7_4.index t (0 : Fin 2) * 4000 + 1 * (y 0).val = win7_4.index t (0 : Fin 2) * 4000 + (y 0).val; omega
    | ⟨1, _⟩ => show win7_4.index t (1 : Fin 2) * 64 + 1 * (y 1).val = (y 1).val; omega
  · show V c main_v86 (((cfg7.win 0).blk t).view.emb (ix2 (⟨(y 0).val, hp⟩ : Fin 4000) (⟨(y 1).val, hq⟩ : Fin 64))) = _
    refine congrArg (V c main_v86) ?_
    funext a; apply Fin.ext
    match a with
    | ⟨0, _⟩ => show win7_0.index t (0 : Fin 2) * 4000 + 1 * (y 0).val = win7_4.index t (0 : Fin 2) * 4000 + (y 0).val; omega
    | ⟨1, _⟩ => show win7_0.index t (1 : Fin 2) * 64 + 1 * (y 1).val = (y 1).val; omega
  · show V c main_v74 (((cfg7.win 1).blk t).view.emb (ix2 (⟨(y 0).val, hp⟩ : Fin 4000) (⟨(y 1).val, hq⟩ : Fin 64))) = _
    refine congrArg (V c main_v74) ?_
    funext a; apply Fin.ext
    match a with
    | ⟨0, _⟩ => show win7_1.index t (0 : Fin 2) * 4000 + 1 * (y 0).val = win7_4.index t (0 : Fin 2) * 4000 + (y 0).val; omega
    | ⟨1, _⟩ => show win7_1.index t (1 : Fin 2) * 64 + 1 * (y 1).val = (y 1).val; omega
  · show V c main_v12 (((cfg7.win 2).blk t).view.emb (ix2 (⟨(y 0).val, hp⟩ : Fin 4000) (0 : Fin 1))) = _
    refine congrArg (V c main_v12) ?_
    funext a; apply Fin.ext
    match a with
    | ⟨0, _⟩ => show win7_2.index t (0 : Fin 2) * 4000 + 1 * (y 0).val = win7_4.index t (0 : Fin 2) * 4000 + (y 0).val; omega
    | ⟨1, _⟩ => show win7_2.index t (1 : Fin 2) * 1 + 1 * 0 = 0; omega
  · show V c main_v87 (((cfg7.win 3).blk t).view.emb (ix2 (0 : Fin 1) (⟨(y 1).val, hq⟩ : Fin 64))) = _
    refine congrArg (V c main_v87) ?_
    funext a; apply Fin.ext
    match a with
    | ⟨0, _⟩ => show win7_3.index t (0 : Fin 2) * 1 + 1 * 0 = 0; omega
    | ⟨1, _⟩ => show win7_3.index t (1 : Fin 2) * 64 + 1 * (y 1).val = (y 1).val; omega

/-- An index of the output array is in point t's block iff each coordinate is in the block's range on its axis. -/
theorem mem_blk7 (t : Fin cfg7.N) (i : S100000x64.Idx) :
    i ∈ ((cfg7.win 4).blk t).view.set ↔ ∀ a : Fin 2, win7_4.index t a * S4000x64.size a ≤ (i a).val
      ∧ (i a).val < win7_4.index t a * S4000x64.size a + S4000x64.size a := by
  show i ∈ ((View.whole main_v88).slice (win7_4.rect t)).set ↔ _
  rw [View.set_slice_whole, Rect.mem_set_unit]
  exact Iff.rfl

/-- Every index of the output array is in the block of a point that writes back: row i in that of point i / 4000. -/
theorem cover7 (i : S100000x64.Idx) :
    ∃ t : Fin cfg7.N, (cfg7.win 4).flush t = true ∧ i ∈ ((cfg7.win 4).blk t).view.set := by
  have hi0 : (i 0).val < 100000 := (i 0).isLt
  have hi1 : (i 1).val < 64 := (i 1).isLt
  obtain ⟨t, ht⟩ := onto7 ⟨(i 0).val / 4000, by omega⟩
  have q0 : win7_4.index t (0 : Fin 2) = (i 0).val / 4000 := congrFun ht 0
  have q1 : win7_4.index t (1 : Fin 2) = 0 := congrFun ht 1
  refine ⟨t, flush7_4 t, ?_⟩
  rw [mem_blk7]
  intro a
  match a with
  | ⟨0, _⟩ => show win7_4.index t (0 : Fin 2) * 4000 ≤ (i 0).val ∧ (i 0).val < win7_4.index t (0 : Fin 2) * 4000 + 4000; omega
  | ⟨1, _⟩ => show win7_4.index t (1 : Fin 2) * 64 ≤ (i 1).val ∧ (i 1).val < win7_4.index t (1 : Fin 2) * 64 + 64; omega

/-- Launch 7 leaves in its output array the whole-array function of the four arrays it reads. -/
theorem end7 : End7 := fun V c =>
  (dat7 (F := Ideal) V c).arrAt_eq_of_cover 4 (Cert.Net.fin (V c main_v86) (V c main_v74) (V c main_v12) (V c main_v87))
    (fun t _ => flushed7 V c t) cover7

end Cert.KernelIdeal.Launches

end
-- ==== Proof.RefBridge.lean ====
/-
  The reference program's result as the network of its arguments.

  The reference computes, from its arguments: the edges' sources and destinations (rows of the edge list), each
  node's factor 1/sqrt(1 + arrivals), four graph-convolution layers and the head. In each layer it builds the edge
  weights as a column by spreading the vector of products along axis 0, the self-loop weights likewise, and the
  bias as a row by spreading the bias vector along axis 1. Its run's result is therefore the network of the first
  module at those columns and rows.
-/
import proofs.«176425_j29858612642432_1_alg».proof.Proof.Gen.ReferenceIdeal.Run
import proofs.«176425_j29858612642432_1_alg».proof.Proof.Net

set_option maxRecDepth 16384

noncomputable section

namespace Cert.ReferenceIdeal.Bridge

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The network at the reference's own columns and rows, as a function of the twelve arguments. -/
def spreadForm (x : (⟨S100000x64, .f32⟩ : BufTy).Contents (Elt F)) (ei : (⟨S2x1000000, .i32⟩ : BufTy).Contents (Elt F))
    (w0 : (⟨S64x64, .f32⟩ : BufTy).Contents (Elt F)) (b0 : (⟨S64, .f32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F))
    (wo : (⟨S64x16, .f32⟩ : BufTy).Contents (Elt F)) (bo : (⟨S16, .f32⟩ : BufTy).Contents (Elt F)) :
    (⟨S100000x16, .f32⟩ : BufTy).Contents (Elt F) :=
  Cert.Net.net (Cert.Net.srcOf ei) (Cert.Net.dstOf ei)
    (broadcastInDim S100000x1 ![0] bcast_S100000_S100000x1_0 (mulf (Cert.Net.disOf (Cert.Net.dstOf ei)) (Cert.Net.disOf (Cert.Net.dstOf ei))))
    (broadcastInDim S1000000x1 ![0] bcast_S1000000_S1000000x1_0 (Cert.Net.edgeWeight (Cert.Net.disOf (Cert.Net.dstOf ei)) (Cert.Net.srcOf ei) (Cert.Net.dstOf ei)))
    x w0 (broadcastInDim S1x64 ![1] bcast_S64_S1x64_1 b0) w1 (broadcastInDim S1x64 ![1] bcast_S64_S1x64_1 b1)
    w2 (broadcastInDim S1x64 ![1] bcast_S64_S1x64_1 b2) w3 (broadcastInDim S1x64 ![1] bcast_S64_S1x64_1 b3)
    wo (broadcastInDim S1x16 ![1] bcast_S16_S1x16_1 bo)

set_option maxHeartbeats 2000000 in
/-- The run's result term is that network of the launch contents of the arguments. -/
theorem result_eq (V0 : Valuation τ sig (Elt F)) :
    val4 V0 (Proc.devRef .tc main_v166)
      = spreadForm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [val4_main_v166]
  rfl

end Cert.ReferenceIdeal.Bridge

end
-- ==== Proof.Join.lean ====
/-
  The two programs build the same columns and rows.

  One program makes the self-loop weights and the edge weights into columns, and each bias into a row, by
  reshaping a vector; the other by spreading the vector along an axis. A vector of n entries reshaped to n × 1
  holds entry e at (e, 0), as does the vector spread along axis 0; reshaped to 1 × n it holds entry k at (0, k), as
  does the vector spread along axis 1. So the columns and rows are the same arrays, and the network of the first
  program's arrays is the network of the second's.
-/
import proofs.«176425_j29858612642432_1_alg».proof.Proof.KernelFold
import proofs.«176425_j29858612642432_1_alg».proof.Proof.RefBridge
import proofs.«176425_j29858612642432_1_alg».proof.Proof.LibRowColumn

set_option maxRecDepth 16384

noncomputable section

namespace Cert.Join

open Idealize.ShloMosaic Idealize.ShloMosaic.TcCoe Idealize.SL.Sem
open Cert.KernelIdeal.Fold

variable (m : (ℓ : Loc Cert.KernelIdeal.nD Cert.KernelIdeal.τ Cert.KernelIdeal.sig) → Buf (Elt Ideal) ℓ) (c : Dev Cert.KernelIdeal.nD)

/-- The self-loop column: the reshaped vector is the vector spread along axis 0. -/
theorem dcol_eq : dcol m c = broadcastInDim Cert.ReferenceIdeal.S100000x1 ![0] Cert.ReferenceIdeal.Gen.bcast_S100000_S100000x1_0
    (mulf (Cert.Net.disOf (Cert.Net.dstOf (m ((c : Thread Cert.KernelIdeal.nD Cert.KernelIdeal.τ).loc Cert.KernelIdeal.main_arg1)))) (Cert.Net.disOf (Cert.Net.dstOf (m ((c : Thread Cert.KernelIdeal.nD Cert.KernelIdeal.τ).loc Cert.KernelIdeal.main_arg1))))) :=
  Cert.LibRowColumn.column_recast_eq_spread (n := 100000) _ _ _

/-- The edge-weight column likewise. -/
theorem wcol_eq : wcol m c = broadcastInDim Cert.ReferenceIdeal.S1000000x1 ![0] Cert.ReferenceIdeal.Gen.bcast_S1000000_S1000000x1_0
    (Cert.Net.edgeWeight (Cert.Net.disOf (Cert.Net.dstOf (m ((c : Thread Cert.KernelIdeal.nD Cert.KernelIdeal.τ).loc Cert.KernelIdeal.main_arg1)))) (Cert.Net.srcOf (m ((c : Thread Cert.KernelIdeal.nD Cert.KernelIdeal.τ).loc Cert.KernelIdeal.main_arg1))) (Cert.Net.dstOf (m ((c : Thread Cert.KernelIdeal.nD Cert.KernelIdeal.τ).loc Cert.KernelIdeal.main_arg1)))) :=
  Cert.LibRowColumn.column_recast_eq_spread (n := 1000000) _ _ _

/-- Each bias row: the reshaped vector is the vector spread along axis 1. -/
theorem brow0_eq : brow0 m c = broadcastInDim Cert.ReferenceIdeal.S1x64 ![1] Cert.ReferenceIdeal.Gen.bcast_S64_S1x64_1 (m ((c : Thread Cert.KernelIdeal.nD Cert.KernelIdeal.τ).loc Cert.KernelIdeal.main_arg3)) :=
  Cert.LibRowColumn.row_recast_eq_spread (c := 64) _ _ _
theorem brow1_eq : brow1 m c = broadcastInDim Cert.ReferenceIdeal.S1x64 ![1] Cert.ReferenceIdeal.Gen.bcast_S64_S1x64_1 (m ((c : Thread Cert.KernelIdeal.nD Cert.KernelIdeal.τ).loc Cert.KernelIdeal.main_arg5)) :=
  Cert.LibRowColumn.row_recast_eq_spread (c := 64) _ _ _
theorem brow2_eq : brow2 m c = broadcastInDim Cert.ReferenceIdeal.S1x64 ![1] Cert.ReferenceIdeal.Gen.bcast_S64_S1x64_1 (m ((c : Thread Cert.KernelIdeal.nD Cert.KernelIdeal.τ).loc Cert.KernelIdeal.main_arg7)) :=
  Cert.LibRowColumn.row_recast_eq_spread (c := 64) _ _ _
theorem brow3_eq : brow3 m c = broadcastInDim Cert.ReferenceIdeal.S1x64 ![1] Cert.ReferenceIdeal.Gen.bcast_S64_S1x64_1 (m ((c : Thread Cert.KernelIdeal.nD Cert.KernelIdeal.τ).loc Cert.KernelIdeal.main_arg9)) :=
  Cert.LibRowColumn.row_recast_eq_spread (c := 64) _ _ _
theorem browO_eq : browO m c = broadcastInDim Cert.ReferenceIdeal.S1x16 ![1] Cert.ReferenceIdeal.Gen.bcast_S16_S1x16_1 (m ((c : Thread Cert.KernelIdeal.nD Cert.KernelIdeal.τ).loc Cert.KernelIdeal.main_arg11)) :=
  Cert.LibRowColumn.row_recast_eq_spread (c := 16) _ _ _

/-- The first program's result is the network at the second program's columns and rows, of the same arguments. -/
theorem out_eq : out m c = Cert.ReferenceIdeal.Bridge.spreadForm (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  unfold out x4 h3 x3 h2 x2 h1 x1 h0
  rw [dcol_eq, wcol_eq, brow0_eq, brow1_eq, brow2_eq, brow3_eq, browO_eq]
  rfl

end Cert.Join

end
-- ==== Proof.lean ====
/-
  The certificate of a four-layer graph network computed by nine kernel launches against its plain reference.

  Both programs compute, on the extended reals, the same network of the same twelve arguments: from the edge list
  the sources and destinations, each node's factor 1/sqrt(1 + arrivals), then four times "project the features,
  gather each edge's source row, scale it by the edge's weight, add what arrives at each node, add the node's own
  row times its self-loop weight and the bias, take tanh", and one dense layer with a bias at the end. They differ
  in three ways only. The first program computes each projection and each layer's end block by block, 4000 rows at
  a time: the 25 blocks together are the whole array, because a row of a matrix product depends on that row of
  the left factor only and the layer's end is pointwise. It multiplies bf16-rounded copies, and rounding is the
  identity on the extended reals. And it makes its weight columns and bias rows by reshaping vectors where the
  reference spreads them along an axis, which gives the same arrays. Sums are only ever rearranged inside one
  matrix product, over one and the same index set, so no finiteness of the inputs is used.

  Frames: the two kernel programs' are the generated frame theorems; the reference's is its generated run with
  the result dropped. Reading the kernel program on the extended reals rewrote none of its operations, so the
  preservation claim is the trivial one.
-/
import proofs.«176425_j29858612642432_1_alg».proof.Defs
import proofs.«176425_j29858612642432_1_alg».proof.Proof.Gen.Kernel
import proofs.«176425_j29858612642432_1_alg».proof.Proof.Gen.Kernel.Skeleton
import proofs.«176425_j29858612642432_1_alg».proof.Proof.Gen.Kernel.Launch
import proofs.«176425_j29858612642432_1_alg».proof.Proof.Gen.Kernel.Points
import proofs.«176425_j29858612642432_1_alg».proof.Proof.Gen.Kernel.Frame
import proofs.«176425_j29858612642432_1_alg».proof.Proof.Gen.KernelIdeal
import proofs.«176425_j29858612642432_1_alg».proof.Proof.Gen.KernelIdeal.Skeleton
import proofs.«176425_j29858612642432_1_alg».proof.Proof.Gen.KernelIdeal.Launch
import proofs.«176425_j29858612642432_1_alg».proof.Proof.Gen.KernelIdeal.Points
import proofs.«176425_j29858612642432_1_alg».proof.Proof.Gen.KernelIdeal.Frame
import proofs.«176425_j29858612642432_1_alg».proof.Proof.Gen.ReferenceIdeal
import proofs.«176425_j29858612642432_1_alg».proof.Proof.Gen.ReferenceIdeal.Run
import proofs.«176425_j29858612642432_1_alg».proof.Proof.Gen.Pre_finite_inputs
import proofs.«176425_j29858612642432_1_alg».proof.Proof.KernelRun
import proofs.«176425_j29858612642432_1_alg».proof.Proof.KernelFold
import proofs.«176425_j29858612642432_1_alg».proof.Proof.LaunchProj
import proofs.«176425_j29858612642432_1_alg».proof.Proof.LaunchEnd
import proofs.«176425_j29858612642432_1_alg».proof.Proof.RefBridge
import proofs.«176425_j29858612642432_1_alg».proof.Proof.Join
import Idealize.ShloMosaic.Adequacy
import Idealize.ShloMosaic.Init

set_option maxRecDepth 16384

noncomputable section

namespace Cert.Proof

open Idealize.ShloMosaic Idealize.ShloMosaic.TcCoe Idealize.SL.Sem

/-- What each of the nine launches leaves in its output array. -/
theorem launches : Cert.KernelIdeal.Fold.AllLaunches :=
  ⟨Cert.KernelIdeal.Launches.proj0, Cert.KernelIdeal.Launches.end1, Cert.KernelIdeal.Launches.proj2, Cert.KernelIdeal.Launches.end3,
   Cert.KernelIdeal.Launches.proj4, Cert.KernelIdeal.Launches.end5, Cert.KernelIdeal.Launches.proj6, Cert.KernelIdeal.Launches.end7,
   Cert.KernelIdeal.Launches.head8⟩

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network's result of those arguments. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.result m ρ c launches), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    refine Eq.trans ?_ (Cert.Join.out_eq m c).symm
    refine ((Cert.ReferenceIdeal.Value.val4_main_v166 _).symm.trans (Cert.ReferenceIdeal.Bridge.result_eq _)).trans ?_
    obtain ⟨e0, e1, e2, e3, e4, e5, e6, e7, e8, e9, e10, e11⟩ := hagree c
    show Cert.ReferenceIdeal.Bridge.spreadForm (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
